-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S2x524288 : Shape := ⟨2, ![2, 524288]⟩
abbrev S500x4096 : Shape := ⟨2, ![500, 4096]⟩
abbrev S500 : Shape := ⟨1, ![500]⟩
abbrev S4096x500 : Shape := ⟨2, ![4096, 500]⟩
abbrev S4096 : Shape := ⟨1, ![4096]⟩
abbrev S1 : Shape := ⟨1, ![1]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S500x4096 : S_.BroadcastsInDim S500x4096 (![] : Fin 0 → Fin S500x4096.rank)
  reducesTo_S500x4096_S_d0_1 : S500x4096.ReducesTo [0, 1] S_
  bcast_S_S500 : S_.BroadcastsInDim S500 (![] : Fin 0 → Fin S500.rank)
  reducesTo_S500_S_d0 : S500.ReducesTo [0] S_
  bcast_S_S4096x500 : S_.BroadcastsInDim S4096x500 (![] : Fin 0 → Fin S4096x500.rank)
  reducesTo_S4096x500_S_d0_1 : S4096x500.ReducesTo [0, 1] S_
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S4096 .f32) (main_arg6 : FVec F S1 .f32) (main_v13 : IVec S_ 1) (main_v16 : IVec S4096x500 1) : IVec S_ 1 :=
  let main_c_5 : IVec S_ 1 := constantI S_ 1 1#1
  let main_v17 : IVec S_ 1 := (fun x v => Host.reduce IntOp.andi x v reducesTo_S4096x500_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x4096 .f32) (main_arg1 : IVec S2x524288 32) (main_arg2 : FVec F S500x4096 .f32) (main_arg3 : FVec F S500 .f32) (main_arg4 : FVec F S4096x500 .f32) (main_arg5 : FVec F S4096 .f32) (main_arg6 : FVec F S1 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S500x4096 .f32 := Host.absf main_arg2
  let main_cst_0 : FVec F S_ .f32 := constant S_ .f32 0x7F800000#32
  let main_v5 : FVec F S500x4096 .f32 := broadcastInDim S500x4096 ![] bcast_S_S500x4096 main_cst_0
  let main_v6 : IVec S500x4096 1 := cmpf .olt main_v4 main_v5
  let main_c_1 : IVec S_ 1 := constantI S_ 1 1#1
  let main_v7 : IVec S_ 1 := (fun x v => Host.reduce IntOp.andi x v reducesTo_S500x4096_S_d0_1 h_S_) main_v6 main_c_1
  let main_v8 : IVec S_ 1 := andi main_v3 main_v7
  let main_v9 : FVec F S500 .f32 := Host.absf main_arg3
  let main_cst_2 : FVec F S_ .f32 := constant S_ .f32 0x7F800000#32
  let main_v10 : FVec F S500 .f32 := broadcastInDim S500 ![] bcast_S_S500 main_cst_2
  let main_v11 : IVec S500 1 := cmpf .olt main_v9 main_v10
  let main_c_3 : IVec S_ 1 := constantI S_ 1 1#1
  let main_v12 : IVec S_ 1 := (fun x v => Host.reduce IntOp.andi x v reducesTo_S500_S_d0 h_S_) main_v11 main_c_3
  let main_v13 : IVec S_ 1 := andi main_v8 main_v12
  let main_v14 : FVec F S4096x500 .f32 := Host.absf main_arg4
  let main_cst_4 : FVec F S_ .f32 := constant S_ .f32 0x7F800000#32
  let main_v15 : FVec F S4096x500 .f32 := broadcastInDim S4096x500 ![] bcast_S_S4096x500 main_cst_4
  let main_v16 : IVec S4096x500 1 := cmpf .olt main_v14 main_v15
  fn_part1 (F := F) main_arg5 main_arg6 main_v13 main_v16
-- ==== Kernel.lean ====
abbrev S16384x4096 : Shape := ⟨2, ![16384, 4096]⟩
abbrev S2x524288 : Shape := ⟨2, ![2, 524288]⟩
abbrev S500x4096 : Shape := ⟨2, ![500, 4096]⟩
abbrev S500 : Shape := ⟨1, ![500]⟩
abbrev S4096x500 : Shape := ⟨2, ![4096, 500]⟩
abbrev S4096 : Shape := ⟨1, ![4096]⟩
abbrev S1 : Shape := ⟨1, ![1]⟩
abbrev S1x500 : Shape := ⟨2, ![1, 500]⟩
abbrev S1x4096 : Shape := ⟨2, ![1, 4096]⟩
abbrev S16384x500 : Shape := ⟨2, ![16384, 500]⟩
abbrev S256x4096 : Shape := ⟨2, ![256, 4096]⟩
abbrev S256x500 : Shape := ⟨2, ![256, 500]⟩
abbrev S_ : Shape := ⟨0, ![]⟩
abbrev S1x524288 : Shape := ⟨2, ![1, 524288]⟩
abbrev S524288 : Shape := ⟨1, ![524288]⟩
abbrev S16384 : Shape := ⟨1, ![16384]⟩
abbrev S524288x1 : Shape := ⟨2, ![524288, 1]⟩
abbrev S524288x500 : Shape := ⟨2, ![524288, 500]⟩

abbrev nBuf : Space → Nat
  | .hbm => 75
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S2x524288, .i32⟩
  | .hbm, ⟨2, _⟩ => ⟨S500x4096, .f32⟩
  | .hbm, ⟨3, _⟩ => ⟨S500, .f32⟩
  | .hbm, ⟨4, _⟩ => ⟨S4096x500, .f32⟩
  | .hbm, ⟨5, _⟩ => ⟨S4096, .f32⟩
  | .hbm, ⟨6, _⟩ => ⟨S1, .f32⟩
  | .hbm, ⟨7, _⟩ => ⟨S4096x500, .f32⟩
  | .hbm, ⟨8, _⟩ => ⟨S4096x500, .bf16⟩
  | .hbm, ⟨9, _⟩ => ⟨S1x500, .f32⟩
  | .hbm, ⟨10, _⟩ => ⟨S500x4096, .f32⟩
  | .hbm, ⟨11, _⟩ => ⟨S500x4096, .bf16⟩
  | .hbm, ⟨12, _⟩ => ⟨S1x4096, .f32⟩
  | .hbm, ⟨13, _⟩ => ⟨S16384x500, .f32⟩
  | .hbm, ⟨14, _⟩ => ⟨S_, .f32⟩
  | .hbm, ⟨15, _⟩ => ⟨S1x524288, .i32⟩
  | .hbm, ⟨16, _⟩ => ⟨S524288, .i32⟩
  | .hbm, ⟨17, _⟩ => ⟨S1x524288, .i32⟩
  | .hbm, ⟨18, _⟩ => ⟨S524288, .i32⟩
  | .hbm, ⟨19, _⟩ => ⟨S_, .f32⟩
  | .hbm, ⟨20, _⟩ => ⟨S524288, .f32⟩
  | .hbm, ⟨21, _⟩ => ⟨S_, .f32⟩
  | .hbm, ⟨22, _⟩ => ⟨S16384, .f32⟩
  | .hbm, ⟨23, _⟩ => ⟨S524288x1, .i32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .i1⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .i32⟩
  | .hbm, ⟨37, _⟩ => ⟨S524288, .i32⟩
  | .hbm, ⟨38, _⟩ => ⟨S524288, .i1⟩
  | .hbm, ⟨39, _⟩ => ⟨S_, .i32⟩
  | .hbm, ⟨40, _⟩ => ⟨S524288, .i32⟩
  | .hbm, ⟨41, _⟩ => ⟨S524288, .i32⟩
  | .hbm, ⟨42, _⟩ => ⟨S524288, .i32⟩
  | .hbm, ⟨43, _⟩ => ⟨S524288x1, .i32⟩
  | .hbm, ⟨44, _⟩ => ⟨S524288, .f32⟩
  | .hbm, ⟨45, _⟩ => ⟨S_, .i32⟩
  | .hbm, ⟨46, _⟩ => ⟨S524288, .i32⟩
  | .hbm, ⟨47, _⟩ => ⟨S524288, .i1⟩
  | .hbm, ⟨48, _⟩ => ⟨S_, .i32⟩
  | .hbm, ⟨49, _⟩ => ⟨S524288, .i32⟩
  | .hbm, ⟨50, _⟩ => ⟨S524288, .i32⟩
  | .hbm, ⟨51, _⟩ => ⟨S524288, .i32⟩
  | .hbm, ⟨52, _⟩ => ⟨S524288x1, .i32⟩
  | .hbm, ⟨53, _⟩ => ⟨S524288, .f32⟩
  | .hbm, ⟨54, _⟩ => ⟨S524288, .f32⟩
  | .hbm, ⟨55, _⟩ => ⟨S16384x500, .f32⟩
  | .hbm, ⟨56, _⟩ => ⟨S16384x500, .f32⟩
  | .hbm, ⟨57, _⟩ => ⟨S524288x1, .f32⟩
  | .hbm, ⟨58, _⟩ => ⟨S_, .i32⟩
  | .hbm, ⟨59, _⟩ => ⟨S524288, .i32⟩
  | .hbm, ⟨60, _⟩ => ⟨S524288, .i1⟩
  | .hbm, ⟨61, _⟩ => ⟨S_, .i32⟩
  | .hbm, ⟨62, _⟩ => ⟨S524288, .i32⟩
  | .hbm, ⟨63, _⟩ => ⟨S524288, .i32⟩
  | .hbm, ⟨64, _⟩ => ⟨S524288, .i32⟩
  | .hbm, ⟨65, _⟩ => ⟨S524288x1, .i32⟩
  | .hbm, ⟨66, _⟩ => ⟨S524288x500, .f32⟩
  | .hbm, ⟨67, _⟩ => ⟨S524288x500, .f32⟩
  | .hbm, ⟨68, _⟩ => ⟨S524288x500, .f32⟩
  | .hbm, ⟨69, _⟩ => ⟨S_, .f32⟩
  | .hbm, ⟨70, _⟩ => ⟨S16384x500, .f32⟩
  | .hbm, ⟨71, _⟩ => ⟨S524288x1, .i32⟩
  | .hbm, ⟨72, _⟩ => ⟨S16384x500, .f32⟩
  | .hbm, ⟨73, _⟩ => ⟨S16384x500, .f32⟩
  | .hbm, ⟨74, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S4096x500, .bf16⟩
  | .local _ .vmem, ⟨3, _⟩ => ⟨S1x500, .f32⟩
  | .local _ .vmem, ⟨4, _⟩ => ⟨S256x500, .f32⟩
  | .local _ .vmem, ⟨5, _⟩ => ⟨S256x500, .f32⟩
  | .local _ .vmem, ⟨6, _⟩ => ⟨S256x500, .f32⟩
  | .local _ .vmem, ⟨7, _⟩ => ⟨S256x500, .f32⟩
  | .local _ .vmem, ⟨8, _⟩ => ⟨S500x4096, .bf16⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x500 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x500 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S500x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S500x4096_S4096x500_1_0 : S500x4096.Transposes [1, 0] S4096x500
  bitsLt_bf16_f32 : FTy.bits .bf16 < FTy.bits .f32
  shapeCasts_S500_S1x500 : S500.ShapeCasts S1x500
  transposes_S4096x500_S500x4096_1_0 : S4096x500.Transposes [1, 0] S500x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S4096x500_S4096x500_0_0 : ∀ a, (![0, 0] : Fin 2 → Nat) a + S4096x500.size a ≤ S4096x500.size a
  h_S4096x500 : 0 < S4096x500.numel
  shapeCasts_S4096x500_S4096x500 : S4096x500.ShapeCasts S4096x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S256x500 : S1x500.Broadcasts S256x500
  inb_S256x500_S256x500_0_0 : ∀ a, (![0, 0] : Fin 2 → Nat) a + S256x500.size a ≤ S256x500.size a
  h_S256x500 : 0 < S256x500.numel
  shapeCasts_S1_S_ : S1.ShapeCasts S_
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S_S16384x500 : S_.BroadcastsInDim S16384x500 (![] : Fin 0 → Fin S16384x500.rank)
  bcast_S524288x1_S524288x500_0_1 : S524288x1.BroadcastsInDim S524288x500 (![0, 1] : Fin 2 → Fin S524288x500.rank)
  shapeCasts_S256x500_S256x500 : S256x500.ShapeCasts S256x500
  inb_S500x4096_S500x4096_0_0 : ∀ a, (![0, 0] : Fin 2 → Nat) a + S500x4096.size a ≤ S500x4096.size a
  h_S500x4096 : 0 < S500x4096.numel
  shapeCasts_S500x4096_S500x4096 : S500x4096.ShapeCasts S500x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S4096x500_S256x500_1_0_0_1_n_n_wf : DotDims.WF S256x4096 S4096x500 S256x500 [1] [0] [0] [1] [] []
  scatter_S16384_S524288x1_S524288_n_0_0_1_wf : ScatterDims.WF S16384 S524288x1 S524288 [] [0] [0] 1
  gather_S16384_S524288x1_S524288_n_0_n_n_0_1_1_wf : GatherDims.WF S16384 S524288x1 S524288 [] [0] [] [0] [] 1 ![1]
  gather_S16384x500_S524288x1_S524288x500_1_0_n_n_0_1_1500_wf : GatherDims.WF S16384x500 S524288x1 S524288x500 [1] [0] [] [0] [] 1 ![1, 500]
  scatter_S16384x500_S524288x1_S524288x500_1_0_0_1_wf : ScatterDims.WF S16384x500 S524288x1 S524288x500 [1] [0] [0] 1
  dot_S256x500_S500x4096_S256x4096_1_0_0_1_n_n_wf : DotDims.WF S256x500 S500x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x500.size a ≤ S4096x500.size a
  hwx0_1 : ∀ i : grid0.Coords, EltTy.bits .bf16 = 32 ∨ (Rect.block (s := S4096x500) S4096x500.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x500.size a ≤ S1x500.size a
  hwx0_2 : ∀ i : grid0.Coords, EltTy.bits .f32 = 32 ∨ (Rect.block (s := S1x500) S1x500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x500.size a ≤ S16384x500.size a
  hwx0_3 : ∀ i : grid0.Coords, EltTy.bits .f32 = 32 ∨ (Rect.block (s := S16384x500) S256x500.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x500.size a ≤ S16384x500.size a
  hwx1_0 : ∀ i : grid1.Coords, EltTy.bits .f32 = 32 ∨ (Rect.block (s := S16384x500) S256x500.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S500x4096.size a ≤ S500x4096.size a
  hwx1_1 : ∀ i : grid1.Coords, EltTy.bits .bf16 = 32 ∨ (Rect.block (s := S500x4096) S500x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S16384x4096.size a
  hwx1_3 : ∀ i : grid1.Coords, EltTy.bits .f32 = 32 ∨ (Rect.block (s := S16384x4096) S256x4096.size (cc1_transform_3 i) (hinb1_3 i)).WholeWords (EltTy.packing .f32)

variable [Facts₀]

def dot_S256x4096_S4096x500_S256x500_1_0_0_1_n_n : DotDims S256x4096 S4096x500 S256x500 where
  lhsContracting := [1]
  rhsContracting := [0]
  lhsNonContracting := [0]
  rhsNonContracting := [1]
  lhsBatch := []
  rhsBatch := []
  wf := dot_S256x4096_S4096x500_S256x500_1_0_0_1_n_n_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def gather_S16384x500_S524288x1_S524288x500_1_0_n_n_0_1_1500 : GatherDims S16384x500 S524288x1 S524288x500 where
  offsetDims := [1]
  collapsedSliceDims := [0]
  operandBatchingDims := []
  startIndicesBatchingDims := []
  startIndexMap := [0]
  indexVectorDim := 1
  sliceSizes := ![1, 500]
  wf := gather_S16384x500_S524288x1_S524288x500_1_0_n_n_0_1_1500_wf
def scatter_S16384x500_S524288x1_S524288x500_1_0_0_1 : ScatterDims S16384x500 S524288x1 S524288x500 where
  updateWindowDims := [1]
  insertedWindowDims := [0]
  scatterDimsToOperandDims := [0]
  indexVectorDim := 1
  wf := scatter_S16384x500_S524288x1_S524288x500_1_0_0_1_wf
def dot_S256x500_S500x4096_S256x4096_1_0_0_1_n_n : DotDims S256x500 S500x4096 S256x4096 where
  lhsContracting := [1]
  rhsContracting := [0]
  lhsNonContracting := [0]
  rhsNonContracting := [1]
  lhsBatch := []
  rhsBatch := []
  wf := dot_S256x500_S500x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x500.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S256x500.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S500x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S2x524288 : Shape := ⟨2, ![2, 524288]⟩
abbrev S500x4096 : Shape := ⟨2, ![500, 4096]⟩
abbrev S500 : Shape := ⟨1, ![500]⟩
abbrev S4096x500 : Shape := ⟨2, ![4096, 500]⟩
abbrev S4096 : Shape := ⟨1, ![4096]⟩
abbrev S1 : Shape := ⟨1, ![1]⟩
abbrev S16384x500 : Shape := ⟨2, ![16384, 500]⟩
abbrev S1x500 : Shape := ⟨2, ![1, 500]⟩
abbrev S_ : Shape := ⟨0, ![]⟩
abbrev S1x524288 : Shape := ⟨2, ![1, 524288]⟩
abbrev S524288 : Shape := ⟨1, ![524288]⟩
abbrev S16384 : Shape := ⟨1, ![16384]⟩
abbrev S524288x1 : Shape := ⟨2, ![524288, 1]⟩
abbrev S1x1 : Shape := ⟨2, ![1, 1]⟩
abbrev S524288x500 : Shape := ⟨2, ![524288, 500]⟩
abbrev S1x4096 : Shape := ⟨2, ![1, 4096]⟩

abbrev nBuf : Space → Nat
  | .hbm => 85
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x524288, .i32⟩
  | .hbm, ⟨2, _⟩ => ⟨S500x4096, .f32⟩
  | .hbm, ⟨3, _⟩ => ⟨S500, .f32⟩
  | .hbm, ⟨4, _⟩ => ⟨S4096x500, .f32⟩
  | .hbm, ⟨5, _⟩ => ⟨S4096, .f32⟩
  | .hbm, ⟨6, _⟩ => ⟨S1, .f32⟩
  | .hbm, ⟨7, _⟩ => ⟨S4096x500, .f32⟩
  | .hbm, ⟨8, _⟩ => ⟨S16384x500, .f32⟩
  | .hbm, ⟨9, _⟩ => ⟨S1x500, .f32⟩
  | .hbm, ⟨10, _⟩ => ⟨S16384x500, .f32⟩
  | .hbm, ⟨11, _⟩ => ⟨S16384x500, .f32⟩
  | .hbm, ⟨12, _⟩ => ⟨S16384x500, .f32⟩
  | .hbm, ⟨13, _⟩ => ⟨S16384x500, .f32⟩
  | .hbm, ⟨14, _⟩ => ⟨S_, .f32⟩
  | .hbm, ⟨15, _⟩ => ⟨S16384x500, .f32⟩
  | .hbm, ⟨16, _⟩ => ⟨S16384x500, .f32⟩
  | .hbm, ⟨17, _⟩ => ⟨S_, .f32⟩
  | .hbm, ⟨18, _⟩ => ⟨S16384x500, .f32⟩
  | .hbm, ⟨19, _⟩ => ⟨S16384x500, .f32⟩
  | .hbm, ⟨20, _⟩ => ⟨S1x524288, .i32⟩
  | .hbm, ⟨21, _⟩ => ⟨S524288, .i32⟩
  | .hbm, ⟨22, _⟩ => ⟨S1x524288, .i32⟩
  | .hbm, ⟨23, _⟩ => ⟨S524288, .i32⟩
  | .hbm, ⟨24, _⟩ => ⟨S_, .f32⟩
  | .hbm, ⟨25, _⟩ => ⟨S524288, .f32⟩
  | .hbm, ⟨26, _⟩ => ⟨S_, .f32⟩
  | .hbm, ⟨27, _⟩ => ⟨S16384, .f32⟩
  | .hbm, ⟨28, _⟩ => ⟨S524288x1, .i32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .i1⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S_, .i32⟩
  | .hbm, ⟨42, _⟩ => ⟨S524288, .i32⟩
  | .hbm, ⟨43, _⟩ => ⟨S524288, .i1⟩
  | .hbm, ⟨44, _⟩ => ⟨S_, .i32⟩
  | .hbm, ⟨45, _⟩ => ⟨S524288, .i32⟩
  | .hbm, ⟨46, _⟩ => ⟨S524288, .i32⟩
  | .hbm, ⟨47, _⟩ => ⟨S524288, .i32⟩
  | .hbm, ⟨48, _⟩ => ⟨S524288x1, .i32⟩
  | .hbm, ⟨49, _⟩ => ⟨S524288, .f32⟩
  | .hbm, ⟨50, _⟩ => ⟨S_, .i32⟩
  | .hbm, ⟨51, _⟩ => ⟨S524288, .i32⟩
  | .hbm, ⟨52, _⟩ => ⟨S524288, .i1⟩
  | .hbm, ⟨53, _⟩ => ⟨S_, .i32⟩
  | .hbm, ⟨54, _⟩ => ⟨S524288, .i32⟩
  | .hbm, ⟨55, _⟩ => ⟨S524288, .i32⟩
  | .hbm, ⟨56, _⟩ => ⟨S524288, .i32⟩
  | .hbm, ⟨57, _⟩ => ⟨S524288x1, .i32⟩
  | .hbm, ⟨58, _⟩ => ⟨S524288, .f32⟩
  | .hbm, ⟨59, _⟩ => ⟨S524288, .f32⟩
  | .hbm, ⟨60, _⟩ => ⟨S1x1, .f32⟩
  | .hbm, ⟨61, _⟩ => ⟨S16384x500, .f32⟩
  | .hbm, ⟨62, _⟩ => ⟨S16384x500, .f32⟩
  | .hbm, ⟨63, _⟩ => ⟨S524288x1, .f32⟩
  | .hbm, ⟨64, _⟩ => ⟨S_, .i32⟩
  | .hbm, ⟨65, _⟩ => ⟨S524288, .i32⟩
  | .hbm, ⟨66, _⟩ => ⟨S524288, .i1⟩
  | .hbm, ⟨67, _⟩ => ⟨S_, .i32⟩
  | .hbm, ⟨68, _⟩ => ⟨S524288, .i32⟩
  | .hbm, ⟨69, _⟩ => ⟨S524288, .i32⟩
  | .hbm, ⟨70, _⟩ => ⟨S524288, .i32⟩
  | .hbm, ⟨71, _⟩ => ⟨S524288x1, .i32⟩
  | .hbm, ⟨72, _⟩ => ⟨S524288x500, .f32⟩
  | .hbm, ⟨73, _⟩ => ⟨S524288x500, .f32⟩
  | .hbm, ⟨74, _⟩ => ⟨S524288x500, .f32⟩
  | .hbm, ⟨75, _⟩ => ⟨S_, .f32⟩
  | .hbm, ⟨76, _⟩ => ⟨S16384x500, .f32⟩
  | .hbm, ⟨77, _⟩ => ⟨S524288x1, .i32⟩
  | .hbm, ⟨78, _⟩ => ⟨S16384x500, .f32⟩
  | .hbm, ⟨79, _⟩ => ⟨S16384x500, .f32⟩
  | .hbm, ⟨80, _⟩ => ⟨S500x4096, .f32⟩
  | .hbm, ⟨81, _⟩ => ⟨S16384x4096, .f32⟩
  | .hbm, ⟨82, _⟩ => ⟨S1x4096, .f32⟩
  | .hbm, ⟨83, _⟩ => ⟨S16384x4096, .f32⟩
  | .hbm, ⟨84, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  transposes_S500x4096_S4096x500_1_0 : S500x4096.Transposes [1, 0] S4096x500
  bcast_S500_S1x500_1 : S500.BroadcastsInDim S1x500 (![1] : Fin 1 → Fin S1x500.rank)
  bcast_S1x500_S16384x500_0_1 : S1x500.BroadcastsInDim S16384x500 (![0, 1] : Fin 2 → Fin S16384x500.rank)
  bcast_S_S16384x500 : S_.BroadcastsInDim S16384x500 (![] : Fin 0 → Fin S16384x500.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S1_S1x1_1 : S1.BroadcastsInDim S1x1 (![1] : Fin 1 → Fin S1x1.rank)
  bcast_S1x1_S16384x500_0_1 : S1x1.BroadcastsInDim S16384x500 (![0, 1] : Fin 2 → Fin S16384x500.rank)
  bcast_S524288x1_S524288x500_0_1 : S524288x1.BroadcastsInDim S524288x500 (![0, 1] : Fin 2 → Fin S524288x500.rank)
  transposes_S4096x500_S500x4096_1_0 : S4096x500.Transposes [1, 0] S500x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x500_S16384x500_1_0_0_1_n_n_wf : DotDims.WF S16384x4096 S4096x500 S16384x500 [1] [0] [0] [1] [] []
  scatter_S16384_S524288x1_S524288_n_0_0_1_wf : ScatterDims.WF S16384 S524288x1 S524288 [] [0] [0] 1
  gather_S16384_S524288x1_S524288_n_0_n_n_0_1_1_wf : GatherDims.WF S16384 S524288x1 S524288 [] [0] [] [0] [] 1 ![1]
  gather_S16384x500_S524288x1_S524288x500_1_0_n_n_0_1_1500_wf : GatherDims.WF S16384x500 S524288x1 S524288x500 [1] [0] [] [0] [] 1 ![1, 500]
  scatter_S16384x500_S524288x1_S524288x500_1_0_0_1_wf : ScatterDims.WF S16384x500 S524288x1 S524288x500 [1] [0] [0] 1
  dot_S16384x500_S500x4096_S16384x4096_1_0_0_1_n_n_wf : DotDims.WF S16384x500 S500x4096 S16384x4096 [1] [0] [0] [1] [] []

variable [Facts₀]

def dot_S16384x4096_S4096x500_S16384x500_1_0_0_1_n_n : DotDims S16384x4096 S4096x500 S16384x500 where
  lhsContracting := [1]
  rhsContracting := [0]
  lhsNonContracting := [0]
  rhsNonContracting := [1]
  lhsBatch := []
  rhsBatch := []
  wf := dot_S16384x4096_S4096x500_S16384x500_1_0_0_1_n_n_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def gather_S16384x500_S524288x1_S524288x500_1_0_n_n_0_1_1500 : GatherDims S16384x500 S524288x1 S524288x500 where
  offsetDims := [1]
  collapsedSliceDims := [0]
  operandBatchingDims := []
  startIndicesBatchingDims := []
  startIndexMap := [0]
  indexVectorDim := 1
  sliceSizes := ![1, 500]
  wf := gather_S16384x500_S524288x1_S524288x500_1_0_n_n_0_1_1500_wf
def scatter_S16384x500_S524288x1_S524288x500_1_0_0_1 : ScatterDims S16384x500 S524288x1 S524288x500 where
  updateWindowDims := [1]
  insertedWindowDims := [0]
  scatterDimsToOperandDims := [0]
  indexVectorDim := 1
  wf := scatter_S16384x500_S524288x1_S524288x500_1_0_0_1_wf
def dot_S16384x500_S500x4096_S16384x4096_1_0_0_1_n_n : DotDims S16384x500 S500x4096 S16384x4096 where
  lhsContracting := [1]
  rhsContracting := [0]
  lhsNonContracting := [0]
  rhsNonContracting := [1]
  lhsBatch := []
  rhsBatch := []
  wf := dot_S16384x500_S500x4096_S16384x4096_1_0_0_1_n_n_wf

class Facts : Prop extends Facts₀ where

variable [Facts]
-- ==== Proof.GraphConv.lean ====
/-
  The graph-convolution layer both programs run between their two dense layers, as ONE function of the node
  features, the edge list and the gate.

  With N = 16384 nodes, D = 500 features and E = 524288 edges, the edge list is a 2 × E array of node numbers:
  row 0 holds each edge's source node, row 1 its target node. Every edge has weight one.
    deg(v)   = the number of edges whose source is v                      (a scatter-add of ones into zeros)
    dinv(v)  = deg(v)^(-1/2) where deg(v) > 0, and 0 elsewhere            (the maximum with 1e-30 only guards the rsqrt)
    norm(e)  = dinv(src e) · dinv(dst e)
    msg(e,·) = norm(e) · (H ⊙ W)(src e, ·)                                 (W is the gate, one number repeated over N × D)
    out      = (scatter-add of msg into zeros at the rows dst e) + H
  A gather reads rows at node numbers normalised the way jnp's indexing does it (a negative number counts from the
  end: n < 0 reads n + N); the scatter-adds take the raw node numbers. The layer is written here over any float
  instance; neither program's arithmetic inside it is ever opened: the two programs apply this same function.
-/
import proofs.«174754_j77129022701569_1_alg».proof.KernelIdeal

noncomputable section

namespace Cert.GraphConv

open Idealize.ShloMosaic Cert.KernelIdeal Cert.KernelIdeal.Facts₀ Cert.KernelIdeal.Facts

variable {F : FTy → Type} [FloatOps F] [Cert.KernelIdeal.Facts]

/-- Row `0` of the edge list, as a flat list of E node numbers: each edge's source. -/
def srcNode (E : (⟨S2x524288, .i32⟩ : BufTy).Contents (Elt F)) : (⟨S524288, .i32⟩ : BufTy).Contents (Elt F) :=
  shapeCast S524288 (extractStridedSlice S1x524288 ![0, 0] E slices_S2x524288_S1x524288_0_0) shapeCasts_S1x524288_S524288

/-- Row `1` of the edge list, as a flat list of E node numbers: each edge's target. -/
def dstNode (E : (⟨S2x524288, .i32⟩ : BufTy).Contents (Elt F)) : (⟨S524288, .i32⟩ : BufTy).Contents (Elt F) :=
  shapeCast S524288 (extractStridedSlice S1x524288 ![1, 0] E slices_S2x524288_S1x524288_1_0) shapeCasts_S1x524288_S524288

/-- Node numbers normalised for a gather: a negative number `n` reads row `n + N`. -/
def wrapNode (r : (⟨S524288, .i32⟩ : BufTy).Contents (Elt F)) : (⟨S524288, .i32⟩ : BufTy).Contents (Elt F) :=
  select (cmpi .slt r (broadcastInDim S524288 ![] bcast_S_S524288 (constantI S_ 32 0#32)))
    (addi r (broadcastInDim S524288 ![] bcast_S_S524288 (constantI S_ 32 16384#32))) r

/-- A flat list of E node numbers as an E × 1 column (the index operand of a gather or a scatter). -/
def asColumn (r : (⟨S524288, .i32⟩ : BufTy).Contents (Elt F)) : (⟨S524288x1, .i32⟩ : BufTy).Contents (Elt F) :=
  broadcastInDim S524288x1 ![0] bcast_S524288_S524288x1_0 r

/-- The degree of every node: ones added into zeros at each edge's source. -/
def degree (E : (⟨S2x524288, .i32⟩ : BufTy).Contents (Elt F)) : FVec F S16384 .f32 :=
  Host.scatterAdd scatter_S16384_S524288x1_S524288_n_0_0_1
    (broadcastInDim S16384 ![] bcast_S_S16384 (constant S_ .f32 0x00000000#32))
    (asColumn (srcNode E))
    (broadcastInDim S524288 ![] bcast_S_S524288 (constant S_ .f32 0x3F800000#32))

/-- `deg^(-1/2)` where the degree is positive, zero elsewhere. -/
def invSqrtDegree (E : (⟨S2x524288, .i32⟩ : BufTy).Contents (Elt F)) : FVec F S16384 .f32 :=
  select (cmpf .ogt (degree E) (broadcastInDim S16384 ![] bcast_S_S16384 (constant S_ .f32 0x00000000#32)))
    (Host.rsqrt (maximumf (degree E) (broadcastInDim S16384 ![] bcast_S_S16384 (constant S_ .f32 0x0DA24260#32))))
    (broadcastInDim S16384 ![] bcast_S_S16384 (constant S_ .f32 0x00000000#32))

/-- The symmetric normalisation of every edge: `dinv(src) · dinv(dst)`. -/
def edgeNorm (E : (⟨S2x524288, .i32⟩ : BufTy).Contents (Elt F)) : FVec F S524288 .f32 :=
  mulf (Host.gather gather_S16384_S524288x1_S524288_n_0_n_n_0_1_1 (invSqrtDegree E) (asColumn (wrapNode (srcNode E))))
    (Host.gather gather_S16384_S524288x1_S524288_n_0_n_n_0_1_1 (invSqrtDegree E) (asColumn (wrapNode (dstNode E))))

/-- The layer: every edge carries `norm · (H ⊙ W)(src, ·)` to its target, the messages are added up per target node,
    and the node's own features are added on top. -/
def conv (H : FVec F S16384x500 .f32) (E : (⟨S2x524288, .i32⟩ : BufTy).Contents (Elt F)) (W : FVec F S16384x500 .f32) :
    FVec F S16384x500 .f32 :=
  addf
    (Host.scatterAdd scatter_S16384x500_S524288x1_S524288x500_1_0_0_1
      (broadcastInDim S16384x500 ![] bcast_S_S16384x500 (constant S_ .f32 0x00000000#32))
      (asColumn (dstNode E))
      (mulf (broadcastInDim S524288x500 ![0, 1] bcast_S524288x1_S524288x500_0_1
          (broadcastInDim S524288x1 ![0] bcast_S524288_S524288x1_0 (edgeNorm E)))
        (Host.gather gather_S16384x500_S524288x1_S524288x500_1_0_n_n_0_1_1500 (mulf H W) (asColumn (wrapNode (srcNode E))))))
    H

end Cert.GraphConv

end
-- ==== Proof.ReferenceRun.lean ====
/-
  The reference program's run, read back.

  The reference is one straight line of 78 whole-array operations on the host (the three operations of the function it
  calls for `where` stand in the call's place). Run in order from the launch memory they leave in the result buffer
  the composition
      decode ( conv ( encode x wenc benc, edges, gate w ), wdec, bdec )
  where `encode` is the dense layer `1 / (1 + exp (−(x · wencᵀ + benc)))`, `conv` the graph-convolution layer
  (GraphConv.lean: the same function the kernel program applies between its two regions), `gate w` the one-entry gate
  repeated over N × D, and `decode` the dense layer `h · wdecᵀ + bdec`. Every weakly fair execution terminates with the
  result at that term of the arguments, and the arguments as launched.
-/
import proofs.«174754_j77129022701569_1_alg».proof.Proof.Gen.ReferenceIdeal
import proofs.«174754_j77129022701569_1_alg».proof.Proof.Gen.KernelIdeal
import proofs.«174754_j77129022701569_1_alg».proof.Proof.GraphConv
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's 78 operations, in order. -/
abbrev ops : List (HloOp τ sig (Elt F)) :=
  [ unary main_arg2 main_v0 ((transpose S4096x500 [1, 0] · transposes_S500x4096_S4096x500_1_0) : (⟨S500x4096, .f32⟩ : BufTy).Contents (Elt F) → (⟨S4096x500, .f32⟩ : BufTy).Contents (Elt F)),
    binary main_arg0 main_v0 main_v1 ((fun l r => Host.dotGeneral dot_S16384x4096_S4096x500_S16384x500_1_0_0_1_n_n none l r) : (⟨S16384x4096, .f32⟩ : BufTy).Contents (Elt F) → (⟨S4096x500, .f32⟩ : BufTy).Contents (Elt F) → (⟨S16384x500, .f32⟩ : BufTy).Contents (Elt F)),
    unary main_arg3 main_v2 (broadcastInDim S1x500 ![1] bcast_S500_S1x500_1 : (⟨S500, .f32⟩ : BufTy).Contents (Elt F) → (⟨S1x500, .f32⟩ : BufTy).Contents (Elt F)),
    unary main_v2 main_v3 (broadcastInDim S16384x500 ![0, 1] bcast_S1x500_S16384x500_0_1 : (⟨S1x500, .f32⟩ : BufTy).Contents (Elt F) → (⟨S16384x500, .f32⟩ : BufTy).Contents (Elt F)),
    binary main_v1 main_v3 main_v4 (addf : (⟨S16384x500, .f32⟩ : BufTy).Contents (Elt F) → (⟨S16384x500, .f32⟩ : BufTy).Contents (Elt F) → (⟨S16384x500, .f32⟩ : BufTy).Contents (Elt F)),
    unary main_v4 main_v5 (Host.negf : (⟨S16384x500, .f32⟩ : BufTy).Contents (Elt F) → (⟨S16384x500, .f32⟩ : BufTy).Contents (Elt F)),
    unary main_v5 main_v6 (Host.exp : (⟨S16384x500, .f32⟩ : BufTy).Contents (Elt F) → (⟨S16384x500, .f32⟩ : BufTy).Contents (Elt F)),
    nullary main_cst (constant S_ .f32 0x3F800000#32),
    unary main_cst main_v7 (broadcastInDim S16384x500 ![] bcast_S_S16384x500 : (⟨S_, .f32⟩ : BufTy).Contents (Elt F) → (⟨S16384x500, .f32⟩ : BufTy).Contents (Elt F)),
    binary main_v7 main_v6 main_v8 (addf : (⟨S16384x500, .f32⟩ : BufTy).Contents (Elt F) → (⟨S16384x500, .f32⟩ : BufTy).Contents (Elt F) → (⟨S16384x500, .f32⟩ : BufTy).Contents (Elt F)),
    nullary main_cst_0 (constant S_ .f32 0x3F800000#32),
    unary main_cst_0 main_v9 (broadcastInDim S16384x500 ![] bcast_S_S16384x500 : (⟨S_, .f32⟩ : BufTy).Contents (Elt F) → (⟨S16384x500, .f32⟩ : BufTy).Contents (Elt F)),
    binary main_v9 main_v8 main_v10 (Host.divf : (⟨S16384x500, .f32⟩ : BufTy).Contents (Elt F) → (⟨S16384x500, .f32⟩ : BufTy).Contents (Elt F) → (⟨S16384x500, .f32⟩ : BufTy).Contents (Elt F)),
    unary main_arg1 main_v11 ((extractStridedSlice S1x524288 ![0, 0] · slices_S2x524288_S1x524288_0_0) : (⟨S2x524288, .i32⟩ : BufTy).Contents (Elt F) → (⟨S1x524288, .i32⟩ : BufTy).Contents (Elt F)),
    reshape main_v11 main_v12 rfl shapeCasts_S1x524288_S524288,
    unary main_arg1 main_v13 ((extractStridedSlice S1x524288 ![1, 0] · slices_S2x524288_S1x524288_1_0) : (⟨S2x524288, .i32⟩ : BufTy).Contents (Elt F) → (⟨S1x524288, .i32⟩ : BufTy).Contents (Elt F)),
    reshape main_v13 main_v14 rfl shapeCasts_S1x524288_S524288,
    nullary main_cst_1 (constant S_ .f32 0x3F800000#32),
    unary main_cst_1 main_v15 (broadcastInDim S524288 ![] bcast_S_S524288 : (⟨S_, .f32⟩ : BufTy).Contents (Elt F) → (⟨S524288, .f32⟩ : BufTy).Contents (Elt F)),
    nullary main_cst_2 (constant S_ .f32 0x00000000#32),
    unary main_cst_2 main_v16 (broadcastInDim S16384 ![] bcast_S_S16384 : (⟨S_, .f32⟩ : BufTy).Contents (Elt F) → (⟨S16384, .f32⟩ : BufTy).Contents (Elt F)),
    unary main_v12 main_v17 (broadcastInDim S524288x1 ![0] bcast_S524288_S524288x1_0 : (⟨S524288, .i32⟩ : BufTy).Contents (Elt F) → (⟨S524288x1, .i32⟩ : BufTy).Contents (Elt F)),
    ternary main_v16 main_v17 main_v15 main_v18 ((fun x i u => Host.scatterAdd scatter_S16384_S524288x1_S524288_n_0_0_1 x i u) : (⟨S16384, .f32⟩ : BufTy).Contents (Elt F) → (⟨S524288x1, .i32⟩ : BufTy).Contents (Elt F) → (⟨S524288, .f32⟩ : BufTy).Contents (Elt F) → (⟨S16384, .f32⟩ : BufTy).Contents (Elt F)),
    nullary main_cst_3 (constant S_ .f32 0x00000000#32),
    unary main_cst_3 main_v19 (broadcastInDim S16384 ![] bcast_S_S16384 : (⟨S_, .f32⟩ : BufTy).Contents (Elt F) → (⟨S16384, .f32⟩ : BufTy).Contents (Elt F)),
    binary main_v18 main_v19 main_v20 (cmpf .ogt : (⟨S16384, .f32⟩ : BufTy).Contents (Elt F) → (⟨S16384, .f32⟩ : BufTy).Contents (Elt F) → (⟨S16384, .i1⟩ : BufTy).Contents (Elt F)),
    nullary main_cst_4 (constant S_ .f32 0x0DA24260#32),
    unary main_cst_4 main_v21 (broadcastInDim S16384 ![] bcast_S_S16384 : (⟨S_, .f32⟩ : BufTy).Contents (Elt F) → (⟨S16384, .f32⟩ : BufTy).Contents (Elt F)),
    binary main_v18 main_v21 main_v22 (maximumf : (⟨S16384, .f32⟩ : BufTy).Contents (Elt F) → (⟨S16384, .f32⟩ : BufTy).Contents (Elt F) → (⟨S16384, .f32⟩ : BufTy).Contents (Elt F)),
    unary main_v22 main_v23 (Host.rsqrt : (⟨S16384, .f32⟩ : BufTy).Contents (Elt F) → (⟨S16384, .f32⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S16384, .f32⟩) main_call0_v1) (broadcastInDim S16384 ![] bcast_S_S16384),
    TRef.ternary (TRef.of (T := ⟨S16384, .i1⟩) main_v20) (TRef.of (T := ⟨S16384, .f32⟩) main_v23) (TRef.of (T := ⟨S16384, .f32⟩) main_call0_v1) (TRef.of (T := ⟨S16384, .f32⟩) main_v24) select,
    nullary main_c (constantI S_ 32 0#32),
    unary main_c main_v25 (broadcastInDim S524288 ![] bcast_S_S524288 : (⟨S_, .i32⟩ : BufTy).Contents (Elt F) → (⟨S524288, .i32⟩ : BufTy).Contents (Elt F)),
    binary main_v12 main_v25 main_v26 (cmpi .slt : (⟨S524288, .i32⟩ : BufTy).Contents (Elt F) → (⟨S524288, .i32⟩ : BufTy).Contents (Elt F) → (⟨S524288, .i1⟩ : BufTy).Contents (Elt F)),
    nullary main_c_6 (constantI S_ 32 16384#32),
    unary main_c_6 main_v27 (broadcastInDim S524288 ![] bcast_S_S524288 : (⟨S_, .i32⟩ : BufTy).Contents (Elt F) → (⟨S524288, .i32⟩ : BufTy).Contents (Elt F)),
    binary main_v12 main_v27 main_v28 (addi : (⟨S524288, .i32⟩ : BufTy).Contents (Elt F) → (⟨S524288, .i32⟩ : BufTy).Contents (Elt F) → (⟨S524288, .i32⟩ : BufTy).Contents (Elt F)),
    ternary main_v26 main_v28 main_v12 main_v29 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v29 main_v30 (broadcastInDim S524288x1 ![0] bcast_S524288_S524288x1_0 : (⟨S524288, .i32⟩ : BufTy).Contents (Elt F) → (⟨S524288x1, .i32⟩ : BufTy).Contents (Elt F)),
    binary main_v24 main_v30 main_v31 ((fun x i => Host.gather gather_S16384_S524288x1_S524288_n_0_n_n_0_1_1 x i) : (⟨S16384, .f32⟩ : BufTy).Contents (Elt F) → (⟨S524288x1, .i32⟩ : BufTy).Contents (Elt F) → (⟨S524288, .f32⟩ : BufTy).Contents (Elt F)),
    nullary main_c_7 (constantI S_ 32 0#32),
    unary main_c_7 main_v32 (broadcastInDim S524288 ![] bcast_S_S524288 : (⟨S_, .i32⟩ : BufTy).Contents (Elt F) → (⟨S524288, .i32⟩ : BufTy).Contents (Elt F)),
    binary main_v14 main_v32 main_v33 (cmpi .slt : (⟨S524288, .i32⟩ : BufTy).Contents (Elt F) → (⟨S524288, .i32⟩ : BufTy).Contents (Elt F) → (⟨S524288, .i1⟩ : BufTy).Contents (Elt F)),
    nullary main_c_8 (constantI S_ 32 16384#32),
    unary main_c_8 main_v34 (broadcastInDim S524288 ![] bcast_S_S524288 : (⟨S_, .i32⟩ : BufTy).Contents (Elt F) → (⟨S524288, .i32⟩ : BufTy).Contents (Elt F)),
    binary main_v14 main_v34 main_v35 (addi : (⟨S524288, .i32⟩ : BufTy).Contents (Elt F) → (⟨S524288, .i32⟩ : BufTy).Contents (Elt F) → (⟨S524288, .i32⟩ : BufTy).Contents (Elt F)),
    ternary main_v33 main_v35 main_v14 main_v36 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v36 main_v37 (broadcastInDim S524288x1 ![0] bcast_S524288_S524288x1_0 : (⟨S524288, .i32⟩ : BufTy).Contents (Elt F) → (⟨S524288x1, .i32⟩ : BufTy).Contents (Elt F)),
    binary main_v24 main_v37 main_v38 ((fun x i => Host.gather gather_S16384_S524288x1_S524288_n_0_n_n_0_1_1 x i) : (⟨S16384, .f32⟩ : BufTy).Contents (Elt F) → (⟨S524288x1, .i32⟩ : BufTy).Contents (Elt F) → (⟨S524288, .f32⟩ : BufTy).Contents (Elt F)),
    binary main_v31 main_v38 main_v39 (mulf : (⟨S524288, .f32⟩ : BufTy).Contents (Elt F) → (⟨S524288, .f32⟩ : BufTy).Contents (Elt F) → (⟨S524288, .f32⟩ : BufTy).Contents (Elt F)),
    unary main_arg6 main_v40 (broadcastInDim S1x1 ![1] bcast_S1_S1x1_1 : (⟨S1, .f32⟩ : BufTy).Contents (Elt F) → (⟨S1x1, .f32⟩ : BufTy).Contents (Elt F)),
    unary main_v40 main_v41 (broadcastInDim S16384x500 ![0, 1] bcast_S1x1_S16384x500_0_1 : (⟨S1x1, .f32⟩ : BufTy).Contents (Elt F) → (⟨S16384x500, .f32⟩ : BufTy).Contents (Elt F)),
    binary main_v10 main_v41 main_v42 (mulf : (⟨S16384x500, .f32⟩ : BufTy).Contents (Elt F) → (⟨S16384x500, .f32⟩ : BufTy).Contents (Elt F) → (⟨S16384x500, .f32⟩ : BufTy).Contents (Elt F)),
    unary main_v39 main_v43 (broadcastInDim S524288x1 ![0] bcast_S524288_S524288x1_0 : (⟨S524288, .f32⟩ : BufTy).Contents (Elt F) → (⟨S524288x1, .f32⟩ : BufTy).Contents (Elt F)),
    nullary main_c_9 (constantI S_ 32 0#32),
    unary main_c_9 main_v44 (broadcastInDim S524288 ![] bcast_S_S524288 : (⟨S_, .i32⟩ : BufTy).Contents (Elt F) → (⟨S524288, .i32⟩ : BufTy).Contents (Elt F)),
    binary main_v12 main_v44 main_v45 (cmpi .slt : (⟨S524288, .i32⟩ : BufTy).Contents (Elt F) → (⟨S524288, .i32⟩ : BufTy).Contents (Elt F) → (⟨S524288, .i1⟩ : BufTy).Contents (Elt F)),
    nullary main_c_10 (constantI S_ 32 16384#32),
    unary main_c_10 main_v46 (broadcastInDim S524288 ![] bcast_S_S524288 : (⟨S_, .i32⟩ : BufTy).Contents (Elt F) → (⟨S524288, .i32⟩ : BufTy).Contents (Elt F)),
    binary main_v12 main_v46 main_v47 (addi : (⟨S524288, .i32⟩ : BufTy).Contents (Elt F) → (⟨S524288, .i32⟩ : BufTy).Contents (Elt F) → (⟨S524288, .i32⟩ : BufTy).Contents (Elt F)),
    ternary main_v45 main_v47 main_v12 main_v48 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v48 main_v49 (broadcastInDim S524288x1 ![0] bcast_S524288_S524288x1_0 : (⟨S524288, .i32⟩ : BufTy).Contents (Elt F) → (⟨S524288x1, .i32⟩ : BufTy).Contents (Elt F)),
    binary main_v42 main_v49 main_v50 ((fun x i => Host.gather gather_S16384x500_S524288x1_S524288x500_1_0_n_n_0_1_1500 x i) : (⟨S16384x500, .f32⟩ : BufTy).Contents (Elt F) → (⟨S524288x1, .i32⟩ : BufTy).Contents (Elt F) → (⟨S524288x500, .f32⟩ : BufTy).Contents (Elt F)),
    unary main_v43 main_v51 (broadcastInDim S524288x500 ![0, 1] bcast_S524288x1_S524288x500_0_1 : (⟨S524288x1, .f32⟩ : BufTy).Contents (Elt F) → (⟨S524288x500, .f32⟩ : BufTy).Contents (Elt F)),
    binary main_v51 main_v50 main_v52 (mulf : (⟨S524288x500, .f32⟩ : BufTy).Contents (Elt F) → (⟨S524288x500, .f32⟩ : BufTy).Contents (Elt F) → (⟨S524288x500, .f32⟩ : BufTy).Contents (Elt F)),
    nullary main_cst_11 (constant S_ .f32 0x00000000#32),
    unary main_cst_11 main_v53 (broadcastInDim S16384x500 ![] bcast_S_S16384x500 : (⟨S_, .f32⟩ : BufTy).Contents (Elt F) → (⟨S16384x500, .f32⟩ : BufTy).Contents (Elt F)),
    unary main_v14 main_v54 (broadcastInDim S524288x1 ![0] bcast_S524288_S524288x1_0 : (⟨S524288, .i32⟩ : BufTy).Contents (Elt F) → (⟨S524288x1, .i32⟩ : BufTy).Contents (Elt F)),
    ternary main_v53 main_v54 main_v52 main_v55 ((fun x i u => Host.scatterAdd scatter_S16384x500_S524288x1_S524288x500_1_0_0_1 x i u) : (⟨S16384x500, .f32⟩ : BufTy).Contents (Elt F) → (⟨S524288x1, .i32⟩ : BufTy).Contents (Elt F) → (⟨S524288x500, .f32⟩ : BufTy).Contents (Elt F) → (⟨S16384x500, .f32⟩ : BufTy).Contents (Elt F)),
    binary main_v55 main_v10 main_v56 (addf : (⟨S16384x500, .f32⟩ : BufTy).Contents (Elt F) → (⟨S16384x500, .f32⟩ : BufTy).Contents (Elt F) → (⟨S16384x500, .f32⟩ : BufTy).Contents (Elt F)),
    unary main_arg4 main_v57 ((transpose S500x4096 [1, 0] · transposes_S4096x500_S500x4096_1_0) : (⟨S4096x500, .f32⟩ : BufTy).Contents (Elt F) → (⟨S500x4096, .f32⟩ : BufTy).Contents (Elt F)),
    binary main_v56 main_v57 main_v58 ((fun l r => Host.dotGeneral dot_S16384x500_S500x4096_S16384x4096_1_0_0_1_n_n none l r) : (⟨S16384x500, .f32⟩ : BufTy).Contents (Elt F) → (⟨S500x4096, .f32⟩ : BufTy).Contents (Elt F) → (⟨S16384x4096, .f32⟩ : BufTy).Contents (Elt F)),
    unary main_arg5 main_v59 (broadcastInDim S1x4096 ![1] bcast_S4096_S1x4096_1 : (⟨S4096, .f32⟩ : BufTy).Contents (Elt F) → (⟨S1x4096, .f32⟩ : BufTy).Contents (Elt F)),
    unary main_v59 main_v60 (broadcastInDim S16384x4096 ![0, 1] bcast_S1x4096_S16384x4096_0_1 : (⟨S1x4096, .f32⟩ : BufTy).Contents (Elt F) → (⟨S16384x4096, .f32⟩ : BufTy).Contents (Elt F)),
    binary main_v58 main_v60 main_v61 (addf : (⟨S16384x4096, .f32⟩ : BufTy).Contents (Elt F) → (⟨S16384x4096, .f32⟩ : BufTy).Contents (Elt F) → (⟨S16384x4096, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub ..⟩

/-- The first dense layer with jax's spelling of the logistic function: `1 / (1 + exp (−(x · wencᵀ + benc)))`. -/
def encode (x : FVec F S16384x4096 .f32) (wenc : FVec F S500x4096 .f32) (benc : FVec F S500 .f32) : FVec F S16384x500 .f32 :=
  Host.divf (broadcastInDim S16384x500 ![] bcast_S_S16384x500 (constant S_ .f32 0x3F800000#32))
    (addf (broadcastInDim S16384x500 ![] bcast_S_S16384x500 (constant S_ .f32 0x3F800000#32))
      (Host.exp (Host.negf (addf
        (Host.dotGeneral dot_S16384x4096_S4096x500_S16384x500_1_0_0_1_n_n none x
          (transpose S4096x500 [1, 0] wenc transposes_S500x4096_S4096x500_1_0))
        (broadcastInDim S16384x500 ![0, 1] bcast_S1x500_S16384x500_0_1 (broadcastInDim S1x500 ![1] bcast_S500_S1x500_1 benc))))))

/-- The gate: the one entry of `w` repeated over N × D. -/
def gate (w : FVec F S1 .f32) : FVec F S16384x500 .f32 :=
  broadcastInDim S16384x500 ![0, 1] bcast_S1x1_S16384x500_0_1 (broadcastInDim S1x1 ![1] bcast_S1_S1x1_1 w)

/-- The second dense layer: `h · wdecᵀ + bdec`. -/
def decode (h : FVec F S16384x500 .f32) (wdec : FVec F S4096x500 .f32) (bdec : FVec F S4096 .f32) : FVec F S16384x4096 .f32 :=
  addf (Host.dotGeneral dot_S16384x500_S500x4096_S16384x4096_1_0_0_1_n_n none h
      (transpose S500x4096 [1, 0] wdec transposes_S4096x500_S500x4096_1_0))
    (broadcastInDim S16384x4096 ![0, 1] bcast_S1x4096_S16384x4096_0_1 (broadcastInDim S1x4096 ![1] bcast_S4096_S1x4096_1 bdec))

/-- The result as a term of the argument arrays. -/
def result (x : FVec F S16384x4096 .f32) (e : (⟨S2x524288, .i32⟩ : BufTy).Contents (Elt F)) (wenc : FVec F S500x4096 .f32)
    (benc : FVec F S500 .f32) (wdec : FVec F S4096x500 .f32) (bdec : FVec F S4096 .f32) (w : FVec F S1 .f32) :
    FVec F S16384x4096 .f32 :=
  decode (Cert.GraphConv.conv (encode x wenc benc) e (gate w)) wdec bdec

set_option maxRecDepth 8192 in
set_option maxHeartbeats 31200000 in
/-- On every device, from any memory with zero counters: every weakly fair execution terminates with the result at
    `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v61).trans (by after_results_simp; rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.Hand

end
-- ==== Proof.KernelRun.lean ====
/-
  The kernel program's run with its RESULT named.

  The program is six segments: host operations, the encode region, three stretches of host operations (the graph
  convolution), the decode region. The buffers' contents at each boundary are a fold from the launch memory; the
  last boundary's contents give every buffer of the device after the run. So every weakly fair execution
  terminates with the result buffer at the last boundary's contents of that buffer — which is what the decode
  region's write-backs leave in its output array — and with the seven arguments as launched.
-/
import proofs.«174754_j77129022701569_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the arguments as launched. -/
theorem run : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Result

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.EncodeBlocks.lean ====
/-
  The encode region: what its output array holds after the run.

  The region runs over 64 grid points; point t takes rows 256 t … 256 t + 255 of X : [16384, 4096], the whole of
  Wt : [4096, 500] and the whole of the bias row B : [1, 500], and writes back rows 256 t … 256 t + 255 of the output
  [16384, 500]. Its body computes, on the extended reals (a change of float format is the identity there, and the
  matrix product into a zero accumulator is the plain sum),
      out (p, j) = logistic ( Σ_k x (p, k) · wt (k, j) + b (0, j) ).
  A row of that result depends on the same row of x only, so the block point t writes is rows 256 t … of ONE function
  of the whole arrays,
      layer X Wt B (r, j) = logistic ( Σ_k X (r, k) · Wt (k, j) + B (0, j) ),
  and the 64 row blocks tile the output: after the run the output array is `layer` of the three arrays as the region
  found them.
-/
import proofs.«174754_j77129022701569_1_alg».proof.Proof.Gen.KernelIdeal.Frame
import proofs.«174754_j77129022701569_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Encode

open Idealize.ShloMosaic Idealize.ShloMosaic.TcCoe Idealize.ShloMosaic.ValueIdx Idealize.SL.Sem
open Idealize.ShloMosaic.Pipeline (Dat)
open Cert.KernelIdeal Cert.KernelIdeal.Gen

/-- One entry of the dense layer with the logistic activation. -/
def layerAt (X : FVec Ideal S16384x4096 .f32) (Wt : FVec Ideal S4096x500 .bf16) (B : FVec Ideal S1x500 .f32)
    (r : Fin 16384) (j : Fin 500) : EReal :=
  Ideal.logistic ((∑ k : Fin 4096, X (ix2 r k) * Wt (ix2 k j)) + B (ix2 0 j))

/-- The dense layer with the logistic activation, as one function of the whole arrays. -/
def layer (X : FVec Ideal S16384x4096 .f32) (Wt : FVec Ideal S4096x500 .bf16) (B : FVec Ideal S1x500 .f32) :
    FVec Ideal S16384x500 .f32 :=
  fun i => layerAt X Wt B (i 0) (i 1)

/-- The body's result at `(p, j)`: the logistic function of row `p` of the block against column `j` of the weights,
    plus the bias of column `j`. -/
theorem payload_apply (x0 : Vec Ideal S256x4096 .f32) (x1 : Vec Ideal S4096x500 .bf16) (x2 : Vec Ideal S1x500 .f32)
    (p : Fin 256) (j : Fin 500) :
    k0_pay1 (F := Ideal) x0 x1 x2 (ix2 p j)
      = Ideal.logistic ((∑ k : Fin 4096, x0 (ix2 p k) * x1 (ix2 k j)) + x2 (ix2 0 j)) := by
  unfold k0_pay1
  simp only [shapeCast_self]
  show Ideal.logistic (FloatOps.matmul (F := Ideal) (DotDims.plain 256 4096 500) none x0 x1
      (constant ⟨2, ![256, 500]⟩ .f32 0x00000000#32) (ix2 p j)
      + (broadcastTo S256x500 x2 broadcasts_S1x500_S256x500 (ix2 p j) : EReal)) = _
  rw [Cert.PlainMatmul.plain_apply,
    broadcastTo_apply x2 broadcasts_S1x500_S256x500 (ix2 p j) (ix2 0 j) (fun a => by
      match a with
      | ⟨0, _⟩ => rfl
      | ⟨1, _⟩ => rfl)]

/-- A row block of the layer: if row `p` of the block `x0` is row `r` of `X`, and the weights and the bias are the whole
    arrays, the body's result at `(p, j)` is the layer at `(r, j)`. -/
theorem payload_eq_layer (X : FVec Ideal S16384x4096 .f32) (Wt : FVec Ideal S4096x500 .bf16) (B : FVec Ideal S1x500 .f32)
    (x0 : Vec Ideal S256x4096 .f32) (x1 : Vec Ideal S4096x500 .bf16) (x2 : Vec Ideal S1x500 .f32)
    (p : Fin 256) (j : Fin 500) (r : Fin 16384)
    (h0 : ∀ k : Fin 4096, x0 (ix2 p k) = X (ix2 r k)) (h1 : ∀ k : Fin 4096, x1 (ix2 k j) = Wt (ix2 k j))
    (h2 : x2 (ix2 0 j) = B (ix2 0 j)) :
    k0_pay1 (F := Ideal) x0 x1 x2 (ix2 p j) = layerAt X Wt B r j := by
  rw [payload_apply, h2]
  unfold layerAt
  exact congrArg (fun s => Ideal.logistic (s + B (ix2 0 j))) (Finset.sum_congr rfl fun k _ => by rw [h0 k, h1 k])

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: point `t` takes row block `t` of `X` and of the output, and block (0, 0) — the
    whole — of the weights and of the bias row. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `layer` of the three arrays as the region finds them. -/
theorem flushed_eq (c : Dev nD) (t : Fin cfg0.N) :
    (dat0 V c).flushed 3 t
      = ((cfg0.win 3).blk t).view.read (Elt Ideal) (layer (V c main_arg0) (V c main_v1) (V c main_v2)) := by
  show (cfg0.win 3).cut (grid0.coords t) ((dat0 V c).after 3 t) = _
  rw [after0_3]
  unfold out0_3
  rw [View.canon_unit_zero zero_offsets]
  simp only [View.ld_unit_zero (S := S256x4096) zero_offsets, View.ld_unit_zero (S := S4096x500) zero_offsets,
    View.ld_unit_zero (S := S1x500) zero_offsets]
  obtain ⟨e00, e01, e10, e11, e20, e21, e30, e31⟩ := index_facts t
  have hN : cfg0.N = 64 := N_0
  have ht : t.val < 64 := hN ▸ t.isLt
  funext y
  obtain ⟨p, j, rfl⟩ : ∃ (p : Fin 256) (j : Fin 500), y = ix2 p j := ⟨y 0, y 1, eq_ix2 y⟩
  rw [View.read_apply]
  have hr : 256 * t.val + p.val < 16384 := by have := p.isLt; omega
  have hemb : ((cfg0.win 3).blk t).view.emb (ix2 p j) = ix2 (⟨256 * t.val + p.val, hr⟩ : Fin 16384) j := by
    funext a; apply Fin.ext
    match a with
    | ⟨0, _⟩ => show win0_3.index t (0 : Fin 2) * 256 + 1 * p.val = 256 * t.val + p.val; omega
    | ⟨1, _⟩ => show win0_3.index t (1 : Fin 2) * 500 + 1 * j.val = j.val; omega
  rw [hemb]
  show k0_pay1 (F := Ideal) (iblk0 V c 0 t) (iblk0 V c 1 t) (iblk0 V c 2 t) (ix2 p j)
    = layerAt (V c main_arg0) (V c main_v1) (V c main_v2) ⟨256 * t.val + p.val, hr⟩ j
  refine payload_eq_layer (V c main_arg0) (V c main_v1) (V c main_v2) (iblk0 V c 0 t) (iblk0 V c 1 t) (iblk0 V c 2 t)
    p j ⟨256 * t.val + p.val, hr⟩ (fun k => ?_) (fun k => ?_) ?_
  · show V c main_arg0 (((cfg0.win 0).blk t).view.emb (ix2 p k)) = V c main_arg0 (ix2 ⟨256 * t.val + p.val, hr⟩ k)
    refine congrArg (V c main_arg0) (funext fun a => Fin.ext ?_)
    match a with
    | ⟨0, _⟩ => show win0_0.index t (0 : Fin 2) * 256 + 1 * p.val = 256 * t.val + p.val; omega
    | ⟨1, _⟩ => show win0_0.index t (1 : Fin 2) * 4096 + 1 * k.val = k.val; omega
  · show V c main_v1 (((cfg0.win 1).blk t).view.emb (ix2 k j)) = V c main_v1 (ix2 k j)
    refine congrArg (V c main_v1) (funext fun a => Fin.ext ?_)
    match a with
    | ⟨0, _⟩ => show win0_1.index t (0 : Fin 2) * 4096 + 1 * k.val = k.val; omega
    | ⟨1, _⟩ => show win0_1.index t (1 : Fin 2) * 500 + 1 * j.val = j.val; omega
  · show V c main_v2 (((cfg0.win 2).blk t).view.emb (ix2 0 j)) = V c main_v2 (ix2 0 j)
    refine congrArg (V c main_v2) (funext fun a => Fin.ext ?_)
    match a with
    | ⟨0, _⟩ => show win0_2.index t (0 : Fin 2) * 1 + 1 * 0 = 0; omega
    | ⟨1, _⟩ => show win0_2.index t (1 : Fin 2) * 500 + 1 * j.val = j.val; omega

/-- An index of the output is in point `t`'s block iff each coordinate is in the block's range on its axis. -/
theorem mem_block (t : Fin cfg0.N) (i : S16384x500.Idx) :
    i ∈ ((cfg0.win 3).blk t).view.set ↔ ∀ a : Fin 2, win0_3.index t a * S256x500.size a ≤ (i a).val
      ∧ (i a).val < win0_3.index t a * S256x500.size a + S256x500.size a := by
  show i ∈ ((View.whole main_v6).slice (win0_3.rect t)).set ↔ _
  rw [View.set_slice_whole, Rect.mem_set_unit]
  exact Iff.rfl

/-- The 64 row blocks tile the output: row `r` is in the block of point `r / 256`. -/
theorem covered (i : S16384x500.Idx) :
    ∃ t : Fin cfg0.N, (cfg0.win 3).flush t = true ∧ i ∈ ((cfg0.win 3).blk t).view.set := by
  have hN : cfg0.N = 64 := N_0
  have hi0 : (i 0).val < 16384 := (i 0).isLt
  have hi1 : (i 1).val < 500 := (i 1).isLt
  refine ⟨⟨(i 0).val / 256, by rw [hN]; omega⟩, flush0_3 _, ?_⟩
  rw [mem_block]
  obtain ⟨-, -, -, -, -, -, e30, e31⟩ := index_facts ⟨(i 0).val / 256, by rw [hN]; omega⟩
  intro a
  match a with
  | ⟨0, _⟩ =>
    show win0_3.index _ (0 : Fin 2) * 256 ≤ (i 0).val ∧ (i 0).val < win0_3.index _ (0 : Fin 2) * 256 + 256
    rw [e30]; show (i 0).val / 256 * 256 ≤ (i 0).val ∧ (i 0).val < (i 0).val / 256 * 256 + 256; omega
  | ⟨1, _⟩ =>
    show win0_3.index _ (1 : Fin 2) * 500 ≤ (i 1).val ∧ (i 1).val < win0_3.index _ (1 : Fin 2) * 500 + 500
    rw [e31]; omega

/-- After the run the region's output array is `layer` of its three input arrays as the region found them. -/
theorem final (c : Dev nD) :
    (dat0 V c).arrAt 3 cfg0.N = layer (V c main_arg0) (V c main_v1) (V c main_v2) :=
  (dat0 V c).arrAt_eq_of_cover 3 _ (fun t _ => flushed_eq V c t) covered

end Cert.KernelIdeal.Encode

end
-- ==== Proof.DecodeBlocks.lean ====
/-
  The decode region: what its output array holds after the run.

  The region runs over 64 grid points; point t takes rows 256 t … 256 t + 255 of H : [16384, 500], the whole of
  Wt : [500, 4096] and the whole of the bias row B : [1, 4096], and writes back rows 256 t … 256 t + 255 of the output
  [16384, 4096]. Its body computes, on the extended reals (a change of float format is the identity there, and the
  matrix product into a zero accumulator is the plain sum),
      out (p, j) = Σ_k h (p, k) · wt (k, j) + b (0, j).
  A row of that result depends on the same row of h only, so the block point t writes is rows 256 t … of ONE function
  of the whole arrays,
      layer H Wt B (r, j) = Σ_k H (r, k) · Wt (k, j) + B (0, j),
  and the 64 row blocks tile the output: after the run the output array is `layer` of the three arrays as the region
  found them.
-/
import proofs.«174754_j77129022701569_1_alg».proof.Proof.Gen.KernelIdeal.Frame
import proofs.«174754_j77129022701569_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Decode

open Idealize.ShloMosaic Idealize.ShloMosaic.TcCoe Idealize.ShloMosaic.ValueIdx Idealize.SL.Sem
open Idealize.ShloMosaic.Pipeline (Dat)
open Cert.KernelIdeal Cert.KernelIdeal.Gen

/-- One entry of the dense layer. -/
def layerAt (H : FVec Ideal S16384x500 .f32) (Wt : FVec Ideal S500x4096 .bf16) (B : FVec Ideal S1x4096 .f32)
    (r : Fin 16384) (j : Fin 4096) : EReal :=
  (∑ k : Fin 500, H (ix2 r k) * Wt (ix2 k j)) + B (ix2 0 j)

/-- The dense layer, as one function of the whole arrays. -/
def layer (H : FVec Ideal S16384x500 .f32) (Wt : FVec Ideal S500x4096 .bf16) (B : FVec Ideal S1x4096 .f32) :
    FVec Ideal S16384x4096 .f32 :=
  fun i => layerAt H Wt B (i 0) (i 1)

/-- The body's result at `(p, j)`: row `p` of the block against column `j` of the weights, plus the bias of column `j`. -/
theorem payload_apply (x0 : Vec Ideal S256x500 .f32) (x1 : Vec Ideal S500x4096 .bf16) (x2 : Vec Ideal S1x4096 .f32)
    (p : Fin 256) (j : Fin 4096) :
    k1_pay1 (F := Ideal) x0 x1 x2 (ix2 p j)
      = (∑ k : Fin 500, x0 (ix2 p k) * x1 (ix2 k j)) + x2 (ix2 0 j) := by
  unfold k1_pay1
  simp only [shapeCast_self]
  show FloatOps.matmul (F := Ideal) (DotDims.plain 256 500 4096) none x0 x1
      (constant ⟨2, ![256, 4096]⟩ .f32 0x00000000#32) (ix2 p j)
      + (broadcastTo S256x4096 x2 broadcasts_S1x4096_S256x4096 (ix2 p j) : EReal) = _
  rw [Cert.PlainMatmul.plain_apply,
    broadcastTo_apply x2 broadcasts_S1x4096_S256x4096 (ix2 p j) (ix2 0 j) (fun a => by
      match a with
      | ⟨0, _⟩ => rfl
      | ⟨1, _⟩ => rfl)]

/-- A row block of the layer: if row `p` of the block `x0` is row `r` of `H`, and the weights and the bias are the whole
    arrays, the body's result at `(p, j)` is the layer at `(r, j)`. -/
theorem payload_eq_layer (H : FVec Ideal S16384x500 .f32) (Wt : FVec Ideal S500x4096 .bf16) (B : FVec Ideal S1x4096 .f32)
    (x0 : Vec Ideal S256x500 .f32) (x1 : Vec Ideal S500x4096 .bf16) (x2 : Vec Ideal S1x4096 .f32)
    (p : Fin 256) (j : Fin 4096) (r : Fin 16384)
    (h0 : ∀ k : Fin 500, x0 (ix2 p k) = H (ix2 r k)) (h1 : ∀ k : Fin 500, x1 (ix2 k j) = Wt (ix2 k j))
    (h2 : x2 (ix2 0 j) = B (ix2 0 j)) :
    k1_pay1 (F := Ideal) x0 x1 x2 (ix2 p j) = layerAt H Wt B r j := by
  rw [payload_apply, h2]
  unfold layerAt
  exact congrArg (fun s => s + B (ix2 0 j)) (Finset.sum_congr rfl fun k _ => by rw [h0 k, h1 k])

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: point `t` takes row block `t` of `H` and of the output, and block (0, 0) — the
    whole — of the weights and of the bias row. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `layer` of the three arrays as the region finds them. -/
theorem flushed_eq (c : Dev nD) (t : Fin cfg1.N) :
    (dat1 V c).flushed 3 t
      = ((cfg1.win 3).blk t).view.read (Elt Ideal) (layer (V c main_v52) (V c main_v4) (V c main_v5)) := by
  show (cfg1.win 3).cut (grid1.coords t) ((dat1 V c).after 3 t) = _
  rw [after1_3]
  unfold out1_3
  rw [View.canon_unit_zero zero_offsets]
  simp only [View.ld_unit_zero (S := S256x500) zero_offsets, View.ld_unit_zero (S := S500x4096) zero_offsets,
    View.ld_unit_zero (S := S1x4096) zero_offsets]
  obtain ⟨e00, e01, e10, e11, e20, e21, e30, e31⟩ := index_facts t
  have hN : cfg1.N = 64 := N_1
  have ht : t.val < 64 := hN ▸ t.isLt
  funext y
  obtain ⟨p, j, rfl⟩ : ∃ (p : Fin 256) (j : Fin 4096), y = ix2 p j := ⟨y 0, y 1, eq_ix2 y⟩
  rw [View.read_apply]
  have hr : 256 * t.val + p.val < 16384 := by have := p.isLt; omega
  have hemb : ((cfg1.win 3).blk t).view.emb (ix2 p j) = ix2 (⟨256 * t.val + p.val, hr⟩ : Fin 16384) j := by
    funext a; apply Fin.ext
    match a with
    | ⟨0, _⟩ => show win1_3.index t (0 : Fin 2) * 256 + 1 * p.val = 256 * t.val + p.val; omega
    | ⟨1, _⟩ => show win1_3.index t (1 : Fin 2) * 4096 + 1 * j.val = j.val; omega
  rw [hemb]
  show k1_pay1 (F := Ideal) (iblk1 V c 0 t) (iblk1 V c 1 t) (iblk1 V c 2 t) (ix2 p j)
    = layerAt (V c main_v52) (V c main_v4) (V c main_v5) ⟨256 * t.val + p.val, hr⟩ j
  refine payload_eq_layer (V c main_v52) (V c main_v4) (V c main_v5) (iblk1 V c 0 t) (iblk1 V c 1 t) (iblk1 V c 2 t)
    p j ⟨256 * t.val + p.val, hr⟩ (fun k => ?_) (fun k => ?_) ?_
  · show V c main_v52 (((cfg1.win 0).blk t).view.emb (ix2 p k)) = V c main_v52 (ix2 ⟨256 * t.val + p.val, hr⟩ k)
    refine congrArg (V c main_v52) (funext fun a => Fin.ext ?_)
    match a with
    | ⟨0, _⟩ => show win1_0.index t (0 : Fin 2) * 256 + 1 * p.val = 256 * t.val + p.val; omega
    | ⟨1, _⟩ => show win1_0.index t (1 : Fin 2) * 500 + 1 * k.val = k.val; omega
  · show V c main_v4 (((cfg1.win 1).blk t).view.emb (ix2 k j)) = V c main_v4 (ix2 k j)
    refine congrArg (V c main_v4) (funext fun a => Fin.ext ?_)
    match a with
    | ⟨0, _⟩ => show win1_1.index t (0 : Fin 2) * 500 + 1 * k.val = k.val; omega
    | ⟨1, _⟩ => show win1_1.index t (1 : Fin 2) * 4096 + 1 * j.val = j.val; omega
  · show V c main_v5 (((cfg1.win 2).blk t).view.emb (ix2 0 j)) = V c main_v5 (ix2 0 j)
    refine congrArg (V c main_v5) (funext fun a => Fin.ext ?_)
    match a with
    | ⟨0, _⟩ => show win1_2.index t (0 : Fin 2) * 1 + 1 * 0 = 0; omega
    | ⟨1, _⟩ => show win1_2.index t (1 : Fin 2) * 4096 + 1 * j.val = j.val; omega

/-- An index of the output is in point `t`'s block iff each coordinate is in the block's range on its axis. -/
theorem mem_block (t : Fin cfg1.N) (i : S16384x4096.Idx) :
    i ∈ ((cfg1.win 3).blk t).view.set ↔ ∀ a : Fin 2, win1_3.index t a * S256x4096.size a ≤ (i a).val
      ∧ (i a).val < win1_3.index t a * S256x4096.size a + S256x4096.size a := by
  show i ∈ ((View.whole main_v53).slice (win1_3.rect t)).set ↔ _
  rw [View.set_slice_whole, Rect.mem_set_unit]
  exact Iff.rfl

/-- The 64 row blocks tile the output: row `r` is in the block of point `r / 256`. -/
theorem covered (i : S16384x4096.Idx) :
    ∃ t : Fin cfg1.N, (cfg1.win 3).flush t = true ∧ i ∈ ((cfg1.win 3).blk t).view.set := by
  have hN : cfg1.N = 64 := N_1
  have hi0 : (i 0).val < 16384 := (i 0).isLt
  have hi1 : (i 1).val < 4096 := (i 1).isLt
  refine ⟨⟨(i 0).val / 256, by rw [hN]; omega⟩, flush1_3 _, ?_⟩
  rw [mem_block]
  obtain ⟨-, -, -, -, -, -, e30, e31⟩ := index_facts ⟨(i 0).val / 256, by rw [hN]; omega⟩
  intro a
  match a with
  | ⟨0, _⟩ =>
    show win1_3.index _ (0 : Fin 2) * 256 ≤ (i 0).val ∧ (i 0).val < win1_3.index _ (0 : Fin 2) * 256 + 256
    rw [e30]; show (i 0).val / 256 * 256 ≤ (i 0).val ∧ (i 0).val < (i 0).val / 256 * 256 + 256; omega
  | ⟨1, _⟩ =>
    show win1_3.index _ (1 : Fin 2) * 4096 ≤ (i 1).val ∧ (i 1).val < win1_3.index _ (1 : Fin 2) * 4096 + 4096
    rw [e31]; omega

/-- After the run the region's output array is `layer` of its three input arrays as the region found them. -/
theorem final (c : Dev nD) :
    (dat1 V c).arrAt 3 cfg1.N = layer (V c main_v52) (V c main_v4) (V c main_v5) :=
  (dat1 V c).arrAt_eq_of_cover 3 _ (fun t _ => flushed_eq V c t) covered

end Cert.KernelIdeal.Decode

end
-- ==== Proof.HostReads.lean ====
/-
  What the kernel program's regions find in their arrays.

  Before the encode region the host transposes each weight matrix and changes its float format, and reshapes each
  bias vector into a one-row matrix; these six operations write fresh buffers and leave the arguments alone. So the
  encode region finds: X itself; wencᵀ in the narrow format; benc as a row.
  Between the two regions the host runs the graph convolution (GraphConv.lean) on the encode region's output array,
  the edge list and the gate (the one entry of `w`, repeated over N × D), in three stretches — the middle one is the
  body of the function the program calls for `where`. No operation of these stretches writes the buffers the first
  six operations wrote. So the decode region finds: `conv` of the encode region's output; wdecᵀ in the narrow format;
  bdec as a row.
-/
import proofs.«174754_j77129022701569_1_alg».proof.Proof.Gen.KernelIdeal.Frame
import proofs.«174754_j77129022701569_1_alg».proof.Proof.GraphConv
import Idealize.ShloMosaic.Lib.StableHlo.Run

set_option maxRecDepth 16384

noncomputable section

namespace Cert.KernelIdeal.HostReads

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The gate as the kernel program spells it: the one entry of `w`, as a scalar, repeated over N × D. -/
def gate (w : FVec F S1 .f32) : FVec F S16384x500 .f32 :=
  broadcastInDim S16384x500 ![] bcast_S_S16384x500 (shapeCast S_ w shapeCasts_S1_S_)

/-! ## The encode region's entry -/

theorem entry0_x (c : Dev nD) : (V1 m ρ c main_arg0 : FVec F S16384x4096 .f32) = m ((c : Thread nD τ).loc main_arg0) := by
  show StableHlo.after hostOps0 (W0 m ρ c) (Proc.devRef .tc main_arg0) = _
  after_results <;> rfl

theorem entry0_w (c : Dev nD) : (V1 m ρ c main_v1 : FVec F S4096x500 .bf16)
    = truncf .bf16 (transpose S4096x500 [1, 0] (m ((c : Thread nD τ).loc main_arg2)) transposes_S500x4096_S4096x500_1_0) bitsLt_bf16_f32 := by
  show StableHlo.after hostOps0 (W0 m ρ c) (Proc.devRef .tc main_v1) = _
  after_results <;> rfl

theorem entry0_b (c : Dev nD) : (V1 m ρ c main_v2 : FVec F S1x500 .f32)
    = shapeCast S1x500 (m ((c : Thread nD τ).loc main_arg3)) shapeCasts_S500_S1x500 := by
  show StableHlo.after hostOps0 (W0 m ρ c) (Proc.devRef .tc main_v2) = _
  after_results <;> rfl

/-! ## Buffers the encode region does not touch, after it -/

theorem after0_edges (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results <;> rfl

theorem after0_gate (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl

theorem after0_w (c : Dev nD) : (W2 m ρ c (Proc.devRef .tc main_v4) : FVec F S500x4096 .bf16)
    = truncf .bf16 (transpose S500x4096 [1, 0] (m ((c : Thread nD τ).loc main_arg4)) transposes_S4096x500_S500x4096_1_0) bitsLt_bf16_f32 := by
  rw [W2_of_ne m ρ c main_v4 (by decide)]
  show StableHlo.after hostOps0 (W0 m ρ c) (Proc.devRef .tc main_v4) = _
  after_results <;> rfl

theorem after0_b (c : Dev nD) : (W2 m ρ c (Proc.devRef .tc main_v5) : FVec F S1x4096 .f32)
    = shapeCast S1x4096 (m ((c : Thread nD τ).loc main_arg5)) shapeCasts_S4096_S1x4096 := by
  rw [W2_of_ne m ρ c main_v5 (by decide)]
  show StableHlo.after hostOps0 (W0 m ρ c) (Proc.devRef .tc main_v5) = _
  after_results <;> rfl

/-! ## The decode region's entry -/

theorem entry1_w (c : Dev nD) : (V5 m ρ c main_v4 : FVec F S500x4096 .bf16)
    = truncf .bf16 (transpose S500x4096 [1, 0] (m ((c : Thread nD τ).loc main_arg4)) transposes_S4096x500_S500x4096_1_0) bitsLt_bf16_f32 := by
  show StableHlo.after hostOps1_2 (StableHlo.after hostOps1_1 (StableHlo.after hostOps1 (W2 m ρ c))) (Proc.devRef .tc main_v4) = _
  after_results_simp
  exact after0_w m ρ c

theorem entry1_b (c : Dev nD) : (V5 m ρ c main_v5 : FVec F S1x4096 .f32)
    = shapeCast S1x4096 (m ((c : Thread nD τ).loc main_arg5)) shapeCasts_S4096_S1x4096 := by
  show StableHlo.after hostOps1_2 (StableHlo.after hostOps1_1 (StableHlo.after hostOps1 (W2 m ρ c))) (Proc.devRef .tc main_v5) = _
  after_results_simp
  exact after0_b m ρ c

set_option maxHeartbeats 4000000 in
/-- The decode region's first operand is the graph convolution of the encode region's output array. -/
theorem entry1_h (c : Dev nD) : (V5 m ρ c main_v52 : FVec F S16384x500 .f32)
    = Cert.GraphConv.conv (W2 m ρ c (Proc.devRef .tc main_v6)) (m ((c : Thread nD τ).loc main_arg1)) (gate (m ((c : Thread nD τ).loc main_arg6))) := by
  show StableHlo.after hostOps1_2 (StableHlo.after hostOps1_1 (StableHlo.after hostOps1 (W2 m ρ c))) (Proc.devRef .tc main_v52) = _
  after_results_simp
  rw [after0_edges m ρ c, after0_gate m ρ c]
  rfl

end Cert.KernelIdeal.HostReads

end
-- ==== Proof.KernelValue.lean ====
/-
  The kernel program's result as one function of its seven argument arrays.

  Reading the run backwards: the result buffer is the decode region's output array; that array is the decode layer of
  what the region found (DecodeBlocks.lean), namely the graph convolution of the encode region's output array, the
  transposed decode weights and the decode bias row (HostReads.lean); the encode region's output array is the encode
  layer of what THAT region found (EncodeBlocks.lean): X, the transposed encode weights, the encode bias row.
-/
import proofs.«174754_j77129022701569_1_alg».proof.Proof.KernelRun
import proofs.«174754_j77129022701569_1_alg».proof.Proof.EncodeBlocks
import proofs.«174754_j77129022701569_1_alg».proof.Proof.DecodeBlocks
import proofs.«174754_j77129022701569_1_alg».proof.Proof.HostReads

set_option maxRecDepth 16384

noncomputable section

namespace Cert.KernelIdeal.Result

open Idealize.ShloMosaic Idealize.ShloMosaic.TcCoe Idealize.SL.Sem
open Cert.KernelIdeal Cert.KernelIdeal.Gen

/-- The kernel program's result: decode ∘ graph convolution ∘ encode, each dense layer on the transposed weights in the
    narrow format and the bias as a row. -/
def value (x : FVec Ideal S16384x4096 .f32) (e : (⟨S2x524288, .i32⟩ : BufTy).Contents (Elt Ideal))
    (wenc : FVec Ideal S500x4096 .f32) (benc : FVec Ideal S500 .f32) (wdec : FVec Ideal S4096x500 .f32)
    (bdec : FVec Ideal S4096 .f32) (w : FVec Ideal S1 .f32) : FVec Ideal S16384x4096 .f32 :=
  Decode.layer
    (Cert.GraphConv.conv
      (Encode.layer x (truncf .bf16 (transpose S4096x500 [1, 0] wenc transposes_S500x4096_S4096x500_1_0) bitsLt_bf16_f32)
        (shapeCast S1x500 benc shapeCasts_S500_S1x500))
      e (HostReads.gate w))
    (truncf .bf16 (transpose S500x4096 [1, 0] wdec transposes_S4096x500_S500x4096_1_0) bitsLt_bf16_f32)
    (shapeCast S1x4096 bdec shapeCasts_S4096_S1x4096)

variable (m : (ℓ : Loc nD τ sig) → Buf (Elt Ideal) ℓ) (ρ : Dev nD → PrngReg)

/-- The last boundary's contents of the result buffer are `value` of the launch contents of the arguments. -/
theorem result_eq (c : Dev nD) :
    (W6 m ρ c (Proc.devRef .tc main_v53) : FVec Ideal S16384x4096 .f32) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h6 : W6 m ρ c (Proc.devRef .tc main_v53) = (dat1 (V5 m ρ) c).arrAt 3 cfg1.N := W6_arr m ρ c 3
  have h2 : W2 m ρ c (Proc.devRef .tc main_v6) = (dat0 (V1 m ρ) c).arrAt 3 cfg0.N := W2_arr m ρ c 3
  rw [h6, Decode.final (V5 m ρ) c, HostReads.entry1_h m ρ c, HostReads.entry1_w m ρ c, HostReads.entry1_b m ρ c, h2,
    Encode.final (V1 m ρ) c, HostReads.entry0_x m ρ c, HostReads.entry0_w m ρ c, HostReads.entry0_b m ρ c]
  rfl

/-- The run with the result named as a function of the arguments. -/
theorem run_value : θ_run defs (onTc (τ := τ) (main (F := Ideal))) ⟨m, fun _ => 0, ρ⟩ (fun r => ∀ c : Dev nD,
      r.2.mem ((c.tc : Thread nD τ).loc main_v53) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run m ρ)

end Cert.KernelIdeal.Result

end
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«174754_j77129022701569_1_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.LibLogisticTanh.lean ====
/-
  Scalar facts on the extended reals behind the LSTM cell: the two float literals the programs spell (one half in the
  kernel, one in the reference), and the identity
      1/2 · tanh (z / 2) + 1/2 = 1 / (1 + e^(-z)),
  the logistic function written through tanh. It holds at EVERY extended real: on the reals it is the usual identity
  (with a = e^(z/2): (a - 1/a)/(a + 1/a) + 1 = 2a/(a + 1/a) = 2/(1 + 1/a²)), at +∞ both sides are 1 and at -∞ both are 0.
-/
import Idealize.ShloMosaic.PureOps.Ideal

noncomputable section

namespace Cert.LstmCell

open Idealize.ShloMosaic

/-- The word 0x3F000000 is the real 1/2. -/
theorem ofBits_half : Ideal.ofBits .f32 0x3F000000#32 = ((1 / 2 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

/-- On the reals: 1/2 · tanh (r/2) + 1/2 = 1 / (1 + e^(-r)). -/
theorem real_logistic_eq_tanh (r : ℝ) :
    (1 / 2 : ℝ) * Real.tanh (1 / 2 * r) + 1 / 2 = (1 + Real.exp (-r))⁻¹ := by
  have ha : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  field_simp
  ring

/-- The same on the extended reals, the infinities included: tanh is ±1 there, and the logistic function 1 and 0. -/
theorem logistic_eq_tanh (z : EReal) :
    ((1 / 2 : ℝ) : EReal) * Ideal.tanh (((1 / 2 : ℝ) : EReal) * z) + ((1 / 2 : ℝ) : EReal) = Ideal.logistic z := by
  induction z using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | coe r =>
    rw [← EReal.coe_mul, Ideal.tanh_coe, ← EReal.coe_mul, ← EReal.coe_add, Ideal.logistic_coe, real_logistic_eq_tanh]
  | top =>
    rw [EReal.coe_mul_top_of_pos (by norm_num), Ideal.tanh_top, Ideal.logistic_top, mul_one, ← EReal.coe_add]
    norm_num

/-- jax's expansion of the logistic function, one divided by one plus the exponential of the negation, is the
    logistic function. -/
theorem div_one_add_exp_neg (z : EReal) : Ideal.div 1 (1 + Ideal.exp (-z)) = Ideal.logistic z := rfl

end Cert.LstmCell

end
-- ==== Proof.LayersAgree.lean ====
/-
  The two programs' dense layers and gates are the same functions on the extended reals.

  Encode. The reference computes 1 / (1 + exp (−z)) with z (r, j) = Σ_k x (r, k) · wencᵀ (k, j) + benc (j), the bias
  vector repeated down the rows; the kernel program computes logistic (z') with z' (r, j) = Σ_k x (r, k) · Wt (k, j) +
  B (0, j), where Wt is wencᵀ in a narrower float format and B is benc reshaped into a one-row matrix. On the extended
  reals a change of format is the identity, so Wt (k, j) = wenc (j, k) = wencᵀ (k, j) and B (0, j) = benc (j): z = z',
  and the logistic function IS 1 / (1 + exp (−z)) at every extended real, the infinities included.
  Gate. Both spell the one entry of `w` repeated over N × D: once through a scalar, once through a 1 × 1 matrix.
  Decode. Both are Σ_k h (r, k) · wdec (j, k) + bdec (j), for the same reasons; no activation follows.
  None of the three needs a finite entry: only the definitions are unfolded, no law of arithmetic is used.
-/
import proofs.«174754_j77129022701569_1_alg».proof.Proof.ReferenceRun
import proofs.«174754_j77129022701569_1_alg».proof.Proof.EncodeBlocks
import proofs.«174754_j77129022701569_1_alg».proof.Proof.DecodeBlocks
import proofs.«174754_j77129022701569_1_alg».proof.Proof.HostReads
import proofs.«174754_j77129022701569_1_alg».proof.Proof.LibRowBlockMatmul
import proofs.«174754_j77129022701569_1_alg».proof.Proof.LibLogisticTanh
import Idealize.ShloMosaic.Lib.Pipeline.Value
import Idealize.ShloMosaic.Lib.ValueIdx
import Idealize.ShloMosaic.Lib.ValueLayout

noncomputable section

namespace Cert.LayersAgree

open Idealize.ShloMosaic Idealize.ShloMosaic.ValueIdx
open Cert.ReferenceIdeal Cert.ReferenceIdeal.Gen

/-- The transposed weights at `(k, j)` are the weights at `(j, k)`. -/
theorem transpose_at {a b : ℕ} (w : FVec Ideal ⟨2, ![a, b]⟩ .f32)
    (hT : (⟨2, ![a, b]⟩ : Shape).Transposes [1, 0] ⟨2, ![b, a]⟩) (k : Fin b) (j : Fin a) :
    transpose ⟨2, ![b, a]⟩ [1, 0] w hT (ix2 k j) = w (ix2 j k) :=
  transpose_apply [1, 0] w hT (ix2 k j) (ix2 j k) (fun c => by
    match c with
    | ⟨0, _⟩ => rfl
    | ⟨1, _⟩ => rfl)

/-- A bias vector repeated down the rows of a matrix, at `(r, j)`, is its entry `j`. -/
theorem bias_rows_at {n a : ℕ} (v : FVec Ideal ⟨1, ![a]⟩ .f32)
    (h1 : (⟨1, ![a]⟩ : Shape).BroadcastsInDim ⟨2, ![1, a]⟩ ![1])
    (h2 : (⟨2, ![1, a]⟩ : Shape).BroadcastsInDim ⟨2, ![n, a]⟩ ![0, 1]) (ha : a ≠ 1) (r : Fin n) (j : Fin a) :
    broadcastInDim ⟨2, ![n, a]⟩ ![0, 1] h2 (broadcastInDim ⟨2, ![1, a]⟩ ![1] h1 v) (ix2 r j) = v (ix1 j) := by
  rw [broadcastInDim_apply ![0, 1] h2 _ (ix2 r j) (ix2 0 j) (fun c => by
      match c with
      | ⟨0, _⟩ => rfl
      | ⟨1, _⟩ => exact (if_neg ha).symm),
    broadcastInDim_apply ![1] h1 v (ix2 0 j) (ix1 j) (fun c => by
      match c with
      | ⟨0, _⟩ => exact (if_neg ha).symm)]

/-- The first dense layer: the reference's spelling is the kernel program's layer of the transposed, re-formatted
    weights and the bias row. -/
theorem encode_eq (x : FVec Ideal S16384x4096 .f32) (wenc : FVec Ideal S500x4096 .f32) (benc : FVec Ideal S500 .f32)
    (hT : S500x4096.Transposes [1, 0] S4096x500) (hb : FTy.bf16.bits < FTy.f32.bits) (hc : S500.ShapeCasts S1x500) :
    Cert.ReferenceIdeal.Hand.encode (F := Ideal) x wenc benc
      = Cert.KernelIdeal.Encode.layer x (truncf .bf16 (transpose S4096x500 [1, 0] wenc hT) hb) (shapeCast S1x500 benc hc) := by
  funext i
  obtain ⟨r, j, rfl⟩ : ∃ (r : Fin 16384) (j : Fin 500), i = ix2 r j := ⟨i 0, i 1, eq_ix2 i⟩
  have hdot : Host.dotGeneral (F := Ideal) dot_S16384x4096_S4096x500_S16384x500_1_0_0_1_n_n none x
      (transpose S4096x500 [1, 0] wenc transposes_S500x4096_S4096x500_1_0) (ix2 r j)
      = ∑ k : Fin 4096, x (ix2 r k) * wenc (ix2 j k) := by
    show FloatOps.dotGeneral (F := Ideal) (DotDims.plain 16384 4096 500) none .single x
      (transpose S4096x500 [1, 0] wenc transposes_S500x4096_S4096x500_1_0) (ix2 r j) = _
    rw [Cert.RowBlockMatmul.plainDot_apply]
    exact Finset.sum_congr rfl fun k _ => by rw [transpose_at wenc _ k j]
  have hbias : broadcastInDim S16384x500 ![0, 1] bcast_S1x500_S16384x500_0_1
      (broadcastInDim S1x500 ![1] bcast_S500_S1x500_1 benc) (ix2 r j) = benc (ix1 j) :=
    bias_rows_at benc _ _ (by decide) r j
  show Ideal.div (Ideal.ofBits .f32 0x3F800000#32) (Ideal.ofBits .f32 0x3F800000#32
      + Ideal.exp (-(Host.dotGeneral (F := Ideal) dot_S16384x4096_S4096x500_S16384x500_1_0_0_1_n_n none x
        (transpose S4096x500 [1, 0] wenc transposes_S500x4096_S4096x500_1_0) (ix2 r j)
        + broadcastInDim S16384x500 ![0, 1] bcast_S1x500_S16384x500_0_1
          (broadcastInDim S1x500 ![1] bcast_S500_S1x500_1 benc) (ix2 r j))))
    = Ideal.logistic ((∑ k : Fin 4096, x (ix2 r k) * transpose S4096x500 [1, 0] wenc hT (ix2 k j))
        + shapeCast S1x500 benc hc (ix2 0 j))
  rw [hdot, hbias, Cert.LstmCell.ofBits_one, shapeCast_a_1a_apply benc hc 0 j]
  simp only [transpose_at wenc hT]
  rfl

/-- The gate: the one entry of `w` repeated over N × D, in either spelling. -/
theorem gate_eq (w : FVec Ideal S1 .f32) :
    Cert.ReferenceIdeal.Hand.gate (F := Ideal) w = Cert.KernelIdeal.HostReads.gate (F := Ideal) w := by
  funext i
  obtain ⟨r, j, rfl⟩ : ∃ (r : Fin 16384) (j : Fin 500), i = ix2 r j := ⟨i 0, i 1, eq_ix2 i⟩
  have hl : Cert.ReferenceIdeal.Hand.gate (F := Ideal) w (ix2 r j) = w (ix1 0) := by
    show broadcastInDim S16384x500 ![0, 1] bcast_S1x1_S16384x500_0_1 (broadcastInDim S1x1 ![1] bcast_S1_S1x1_1 w) (ix2 r j) = _
    rw [broadcastInDim_apply ![0, 1] bcast_S1x1_S16384x500_0_1 _ (ix2 r j) (ix2 0 0) (fun c => by
        match c with
        | ⟨0, _⟩ => rfl
        | ⟨1, _⟩ => rfl),
      broadcastInDim_apply ![1] bcast_S1_S1x1_1 w (ix2 0 0) (ix1 0) (fun c => by
        match c with
        | ⟨0, _⟩ => rfl)]
  have hr : Cert.KernelIdeal.HostReads.gate (F := Ideal) w (ix2 r j) = w (ix1 0) := by
    unfold Cert.KernelIdeal.HostReads.gate
    rw [broadcastInDim_apply ![] _ _ (ix2 r j) ix0 (fun c => c.elim0),
      shapeCast_apply w _ ix0 (ix1 0) (by rfl)]
  rw [hl, hr]

/-- The second dense layer: the reference's spelling is the kernel program's layer of the transposed, re-formatted
    weights and the bias row. -/
theorem decode_eq (h : FVec Ideal S16384x500 .f32) (wdec : FVec Ideal S4096x500 .f32) (bdec : FVec Ideal S4096 .f32)
    (hT : S4096x500.Transposes [1, 0] S500x4096) (hb : FTy.bf16.bits < FTy.f32.bits) (hc : S4096.ShapeCasts S1x4096) :
    Cert.ReferenceIdeal.Hand.decode (F := Ideal) h wdec bdec
      = Cert.KernelIdeal.Decode.layer h (truncf .bf16 (transpose S500x4096 [1, 0] wdec hT) hb) (shapeCast S1x4096 bdec hc) := by
  funext i
  obtain ⟨r, j, rfl⟩ : ∃ (r : Fin 16384) (j : Fin 4096), i = ix2 r j := ⟨i 0, i 1, eq_ix2 i⟩
  have hdot : Host.dotGeneral (F := Ideal) dot_S16384x500_S500x4096_S16384x4096_1_0_0_1_n_n none h
      (transpose S500x4096 [1, 0] wdec transposes_S4096x500_S500x4096_1_0) (ix2 r j)
      = ∑ k : Fin 500, h (ix2 r k) * wdec (ix2 j k) := by
    show FloatOps.dotGeneral (F := Ideal) (DotDims.plain 16384 500 4096) none .single h
      (transpose S500x4096 [1, 0] wdec transposes_S4096x500_S500x4096_1_0) (ix2 r j) = _
    rw [Cert.RowBlockMatmul.plainDot_apply]
    exact Finset.sum_congr rfl fun k _ => by rw [transpose_at wdec _ k j]
  have hbias : broadcastInDim S16384x4096 ![0, 1] bcast_S1x4096_S16384x4096_0_1
      (broadcastInDim S1x4096 ![1] bcast_S4096_S1x4096_1 bdec) (ix2 r j) = bdec (ix1 j) :=
    bias_rows_at bdec _ _ (by decide) r j
  show (Host.dotGeneral (F := Ideal) dot_S16384x500_S500x4096_S16384x4096_1_0_0_1_n_n none h
        (transpose S500x4096 [1, 0] wdec transposes_S4096x500_S500x4096_1_0) (ix2 r j)
      + broadcastInDim S16384x4096 ![0, 1] bcast_S1x4096_S16384x4096_0_1
          (broadcastInDim S1x4096 ![1] bcast_S4096_S1x4096_1 bdec) (ix2 r j) : EReal)
    = (∑ k : Fin 500, h (ix2 r k) * transpose S500x4096 [1, 0] wdec hT (ix2 k j))
        + shapeCast S1x4096 bdec hc (ix2 0 j)
  rw [hdot, hbias, shapeCast_a_1a_apply bdec hc 0 j]
  simp only [transpose_at wdec hT]

end Cert.LayersAgree

end
-- ==== Proof.ProgramsAgree.lean ====
/-
  The two programs compute one function.

  The kernel program's result is decode ∘ conv ∘ encode with the kernel's spelling of the two dense layers and of the
  gate; the reference's is the same composition with jnp's spelling. The layers and the gate agree (LayersAgree.lean),
  and the graph convolution between them is literally the same function applied to equal arguments.
-/
import proofs.«174754_j77129022701569_1_alg».proof.Proof.KernelValue
import proofs.«174754_j77129022701569_1_alg».proof.Proof.LayersAgree

noncomputable section

namespace Cert.ProgramsAgree

open Idealize.ShloMosaic
open Cert.KernelIdeal Cert.KernelIdeal.Gen

/-- At every argument the reference's result term is the kernel program's. -/
theorem result_eq (x : FVec Ideal S16384x4096 .f32) (e : (⟨S2x524288, .i32⟩ : BufTy).Contents (Elt Ideal))
    (wenc : FVec Ideal S500x4096 .f32) (benc : FVec Ideal S500 .f32) (wdec : FVec Ideal S4096x500 .f32)
    (bdec : FVec Ideal S4096 .f32) (w : FVec Ideal S1 .f32) :
    Cert.ReferenceIdeal.Hand.result (F := Ideal) x e wenc benc wdec bdec w
      = Cert.KernelIdeal.Result.value x e wenc benc wdec bdec w := by
  unfold Cert.ReferenceIdeal.Hand.result Cert.KernelIdeal.Result.value
  rw [Cert.LayersAgree.encode_eq x wenc benc transposes_S500x4096_S4096x500_1_0 bitsLt_bf16_f32 shapeCasts_S500_S1x500,
    Cert.LayersAgree.gate_eq w]
  exact Cert.LayersAgree.decode_eq _ wdec bdec transposes_S4096x500_S500x4096_1_0 bitsLt_bf16_f32 shapeCasts_S4096_S1x4096

end Cert.ProgramsAgree

end
-- ==== Proof.lean ====
/-
  A graph autoencoder: x ↦ decode (conv (encode x)), with
      encode x = logistic (x · wencᵀ + benc)            [16384, 4096] → [16384, 500]
      conv h   = (normalised scatter-add of the gated rows of h along the edges) + h
      decode h = h · wdecᵀ + bdec                       [16384, 500] → [16384, 4096].
  The kernel program runs encode and decode as two pipelined regions over 64 row blocks of 256 rows, on weights it has
  transposed and re-formatted on the host, and runs conv between them on the host; the reference runs all three on the
  host, with the logistic function spelt 1 / (1 + exp (−z)).

  On the extended reals the two results are equal entry by entry:
  • a change of float format is the identity, and a matrix product into a zero accumulator is the plain sum over the
    contracted axis, so each region's row block is the rows of one whole-array dense layer (EncodeBlocks.lean,
    DecodeBlocks.lean), and the blocks tile the output;
  • those dense layers, and the gate, are the reference's (LayersAgree.lean); the logistic function is
    1 / (1 + exp (−z)) at every extended real;
  • conv is the same function in both programs (GraphConv.lean) and is never opened.
  No step uses a law of arithmetic that fails at an infinity, so the precondition (finite inputs) is not used.

  The three frames: the two kernel programs' are the generated ones; the reference's is its run with the result dropped.
  The idealization rewrote no operation, so there is nothing to preserve.
-/
import proofs.«174754_j77129022701569_1_alg».proof.Defs
import proofs.«174754_j77129022701569_1_alg».proof.Proof.Gen.Kernel
import proofs.«174754_j77129022701569_1_alg».proof.Proof.Gen.Kernel.Skeleton
import proofs.«174754_j77129022701569_1_alg».proof.Proof.Gen.Kernel.Launch
import proofs.«174754_j77129022701569_1_alg».proof.Proof.Gen.Kernel.Points
import proofs.«174754_j77129022701569_1_alg».proof.Proof.Gen.Kernel.Frame
import proofs.«174754_j77129022701569_1_alg».proof.Proof.Gen.KernelIdeal
import proofs.«174754_j77129022701569_1_alg».proof.Proof.Gen.KernelIdeal.Skeleton
import proofs.«174754_j77129022701569_1_alg».proof.Proof.Gen.KernelIdeal.Launch
import proofs.«174754_j77129022701569_1_alg».proof.Proof.Gen.KernelIdeal.Points
import proofs.«174754_j77129022701569_1_alg».proof.Proof.Gen.KernelIdeal.Frame
import proofs.«174754_j77129022701569_1_alg».proof.Proof.Gen.ReferenceIdeal
import proofs.«174754_j77129022701569_1_alg».proof.Proof.Gen.Pre_finite_inputs
import proofs.«174754_j77129022701569_1_alg».proof.Proof.ReferenceRun
import proofs.«174754_j77129022701569_1_alg».proof.Proof.KernelValue
import proofs.«174754_j77129022701569_1_alg».proof.Proof.ProgramsAgree
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Hand.run (F := Ideal) m ρ)

/-- Both programs end with the result at one function of the argument arrays: the kernel program's at
    `Result.value`, the reference's at its own composition, equal to it at every argument. -/
theorem algebraic : Cert.algebraic_KernelIdeal_ReferenceIdeal := by
  intro m ρ m' ρ' _ hagree
  refine ⟨fun c => Cert.KernelIdeal.Result.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Result.run_value m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6⟩ := hagree c
  rw [e0, e1, e2, e3, e4, e5, e6]
  exact Cert.ProgramsAgree.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
